-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x17x3 : Shape := ⟨3, ![1000000, 17, 3]⟩
abbrev S34x128 : Shape := ⟨2, ![34, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S1000000x17x3 : S_.BroadcastsInDim S1000000x17x3 (![] : Fin 0 → Fin S1000000x17x3.rank)
  reducesTo_S1000000x17x3_S_d0_1_2 : S1000000x17x3.ReducesTo [0, 1, 2] S_
  h_S_ : 0 < S_.numel
  bcast_S_S34x128 : S_.BroadcastsInDim S34x128 (![] : Fin 0 → Fin S34x128.rank)
  reducesTo_S34x128_S_d0_1 : S34x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S1000000x17x3 .f32) (main_arg1 : FVec F S34x128 .f32) (main_arg2 : FVec F S128 .f32) (main_arg3 : FVec F S128x64 .f32) (main_arg4 : FVec F S64 .f32) : IVec S_ 1 :=
  let main_v0 : FVec F S1000000x17x3 .f32 := Host.absf main_arg0
  let main_cst : FVec F S_ .f32 := constant S_ .f32 0x7F800000#32
  let main_v1 : FVec F S1000000x17x3 .f32 := broadcastInDim S1000000x17x3 ![] bcast_S_S1000000x17x3 main_cst
  let main_v2 : IVec S1000000x17x3 1 := cmpf .olt main_v0 main_v1
  let main_c : IVec S_ 1 := constantI S_ 1 1#1
  let main_v3 : IVec S_ 1 := (fun x v => Host.reduce IntOp.andi x v reducesTo_S1000000x17x3_S_d0_1_2 h_S_) main_v2 main_c
  let main_v4 : FVec F S34x128 .f32 := Host.absf main_arg1
  let main_cst_0 : FVec F S_ .f32 := constant S_ .f32 0x7F800000#32
  let main_v5 : FVec F S34x128 .f32 := broadcastInDim S34x128 ![] bcast_S_S34x128 main_cst_0
  let main_v6 : IVec S34x128 1 := cmpf .olt main_v4 main_v5
  let main_c_1 : IVec S_ 1 := constantI S_ 1 1#1
  let main_v7 : IVec S_ 1 := (fun x v => Host.reduce IntOp.andi x v reducesTo_S34x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_v13 main_v16
-- ==== Kernel.lean ====
abbrev S1000000x17x3 : Shape := ⟨3, ![1000000, 17, 3]⟩
abbrev S34x128 : Shape := ⟨2, ![34, 128]⟩
abbrev S128 : Shape := ⟨1, ![128]⟩
abbrev S128x64 : Shape := ⟨2, ![128, 64]⟩
abbrev S64 : Shape := ⟨1, ![64]⟩
abbrev S51x17 : Shape := ⟨2, ![51, 17]⟩
abbrev S34 : Shape := ⟨1, ![34]⟩
abbrev S1000000x51 : Shape := ⟨2, ![1000000, 51]⟩
abbrev S_ : Shape := ⟨0, ![]⟩
abbrev S34x1 : Shape := ⟨2, ![34, 1]⟩
abbrev S1 : Shape := ⟨1, ![1]⟩
abbrev S1x1 : Shape := ⟨2, ![1, 1]⟩
abbrev S1x128 : Shape := ⟨2, ![1, 128]⟩
abbrev S1x64 : Shape := ⟨2, ![1, 64]⟩
abbrev S1000000x64 : Shape := ⟨2, ![1000000, 64]⟩
abbrev S20000x51 : Shape := ⟨2, ![20000, 51]⟩
abbrev S20000x64 : Shape := ⟨2, ![20000, 64]⟩
abbrev S20000x17 : Shape := ⟨2, ![20000, 17]⟩
abbrev S20000x1 : Shape := ⟨2, ![20000, 1]⟩
abbrev S20000 : Shape := ⟨1, ![20000]⟩
abbrev S20000x34 : Shape := ⟨2, ![20000, 34]⟩
abbrev S20000x128 : Shape := ⟨2, ![20000, 128]⟩

abbrev nBuf : Space → Nat
  | .hbm => 35
  | .vmem => 10
  | .smem => 0
  | _ => 0

abbrev bufTy : (tb : Table) → Fin (tcTables nBuf tb) → BufTy
  | .hbm, ⟨0, _⟩ => ⟨S1000000x17x3, .f32⟩
  | .hbm, ⟨1, _⟩ => ⟨S34x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S51x17, .f32⟩
  | .hbm, ⟨6, _⟩ => ⟨S51x17, .f32⟩
  | .hbm, ⟨7, _⟩ => ⟨S34, .i32⟩
  | .hbm, ⟨8, _⟩ => ⟨S1000000x51, .f32⟩
  | .hbm, ⟨9, _⟩ => ⟨S_, .i32⟩
  | .hbm, ⟨10, _⟩ => ⟨S34, .i32⟩
  | .hbm, ⟨11, _⟩ => ⟨S34, .i1⟩
  | .hbm, ⟨12, _⟩ => ⟨S_, .i32⟩
  | .hbm, ⟨13, _⟩ => ⟨S34, .i32⟩
  | .hbm, ⟨14, _⟩ => ⟨S34, .i32⟩
  | .hbm, ⟨15, _⟩ => ⟨S34, .i32⟩
  | .hbm, ⟨16, _⟩ => ⟨S34x1, .i32⟩
  | .hbm, ⟨17, _⟩ => ⟨S1, .i32⟩
  | .hbm, ⟨18, _⟩ => ⟨S_, .i32⟩
  | .hbm, ⟨19, _⟩ => ⟨S34x1, .i32⟩
  | .hbm, ⟨20, _⟩ => ⟨S34x1, .i1⟩
  | .hbm, ⟨21, _⟩ => ⟨S1x1, .i32⟩
  | .hbm, ⟨22, _⟩ => ⟨S34x1, .i32⟩
  | .hbm, ⟨23, _⟩ => ⟨S34x1, .i1⟩
  | .hbm, ⟨24, _⟩ => ⟨S34x1, .i1⟩
  | .hbm, ⟨25, _⟩ => ⟨S_, .i1⟩
  | .hbm, ⟨26, _⟩ => ⟨S34, .i1⟩
  | .hbm, ⟨27, _⟩ => ⟨S34x128, .f32⟩
  | .hbm, ⟨28, _⟩ => ⟨S34x128, .i1⟩
  | .hbm, ⟨29, _⟩ => ⟨S_, .f32⟩
  | .hbm, ⟨30, _⟩ => ⟨S34x128, .f32⟩
  | .hbm, ⟨31, _⟩ => ⟨S34x128, .f32⟩
  | .hbm, ⟨32, _⟩ => ⟨S1x128, .f32⟩
  | .hbm, ⟨33, _⟩ => ⟨S1x64, .f32⟩
  | .hbm, ⟨34, _⟩ => ⟨S1000000x64, .f32⟩
  | .local _ .vmem, ⟨0, _⟩ => ⟨S20000x51, .f32⟩
  | .local _ .vmem, ⟨1, _⟩ => ⟨S20000x51, .f32⟩
  | .local _ .vmem, ⟨2, _⟩ => ⟨S51x17, .f32⟩
  | .local _ .vmem, ⟨3, _⟩ => ⟨S51x17, .f32⟩
  | .local _ .vmem, ⟨4, _⟩ => ⟨S34x128, .f32⟩
  | .local _ .vmem, ⟨5, _⟩ => ⟨S1x128, .f32⟩
  | .local _ .vmem, ⟨6, _⟩ => ⟨S128x64, .f32⟩
  | .local _ .vmem, ⟨7, _⟩ => ⟨S1x64, .f32⟩
  | .local _ .vmem, ⟨8, _⟩ => ⟨S20000x64, .f32⟩
  | .local _ .vmem, ⟨9, _⟩ => ⟨S20000x64, .f32⟩
  | _, _ => ⟨S1000000x17x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_c : Ref sig .tc := ⟨.hbm, 7, rfl⟩
abbrev main_v0 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x51 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S51x17 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S51x17 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S34x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S20000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S1000000x17x3_S1000000x51 : S1000000x17x3.ShapeCasts S1000000x51
  bcast_S_S34 : S_.BroadcastsInDim S34 (![] : Fin 0 → Fin S34.rank)
  bcast_S34_S34x1_0 : S34.BroadcastsInDim S34x1 (![0] : Fin 1 → Fin S34x1.rank)
  bcast_S_S34x1 : S_.BroadcastsInDim S34x1 (![] : Fin 0 → Fin S34x1.rank)
  bcast_S1_S1x1_1 : S1.BroadcastsInDim S1x1 (![1] : Fin 1 → Fin S1x1.rank)
  bcast_S1x1_S34x1_0_1 : S1x1.BroadcastsInDim S34x1 (![0, 1] : Fin 2 → Fin S34x1.rank)
  reducesTo_S34x1_S34_d1 : S34x1.ReducesTo [1] S34
  h_S_ : 0 < S_.numel
  bcast_S34_S34x128_0 : S34.BroadcastsInDim S34x128 (![0] : Fin 1 → Fin S34x128.rank)
  bcast_S_S34x128 : S_.BroadcastsInDim S34x128 (![] : Fin 0 → Fin S34x128.rank)
  shapeCasts_S128_S1x128 : S128.ShapeCasts S1x128
  shapeCasts_S64_S1x64 : S64.ShapeCasts S1x64
  inb_S20000x51_S20000x51_0_0 : ∀ a, (![0, 0] : Fin 2 → Nat) a + S20000x51.size a ≤ S20000x51.size a
  h_S20000x51 : 0 < S20000x51.numel
  shapeCasts_S20000x51_S20000x51 : S20000x51.ShapeCasts S20000x51
  inb_S51x17_S51x17_0_0 : ∀ a, (![0, 0] : Fin 2 → Nat) a + S51x17.size a ≤ S51x17.size a
  h_S51x17 : 0 < S51x17.numel
  slices_S20000x17_o0_11_S20000x1 : S20000x17.Slices ![0, 11] S20000x1
  slices_S20000x17_o0_12_S20000x1 : S20000x17.Slices ![0, 12] S20000x1
  natLt_1_32 : 1 < 32
  reduces_S20000x17_S20000 : S20000x17.Reduces [1] S20000
  shapeCasts_S20000_S20000x1 : S20000.ShapeCasts S20000x1
  broadcasts_S20000x1_S20000x17 : S20000x1.Broadcasts S20000x17
  concatenates_S20000x17_S20000x17_S20000x34_d1 : Shape.Concatenates [S20000x17, S20000x17] S20000x34 1
  inb_S34x128_S34x128_0_0 : ∀ a, (![0, 0] : Fin 2 → Nat) a + S34x128.size a ≤ S34x128.size a
  h_S34x128 : 0 < S34x128.numel
  shapeCasts_S34x128_S34x128 : S34x128.ShapeCasts S34x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S20000x128 : S1x128.Broadcasts S20000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S20000x64 : S1x64.Broadcasts S20000x64
  inb_S20000x64_S20000x64_0_0 : ∀ a, (![0, 0] : Fin 2 → Nat) a + S20000x64.size a ≤ S20000x64.size a
  h_S20000x64 : 0 < S20000x64.numel
  gather_S34x128_S34x1_S34x128_1_0_n_n_0_1_1128_wf : GatherDims.WF S34x128 S34x1 S34x128 [1] [0] [] [0] [] 1 ![1, 128]
  dot_S20000x51_S51x17_S20000x17_1_0_0_1_n_n_wf : DotDims.WF S20000x51 S51x17 S20000x17 [1] [0] [0] [1] [] []
  dot_S20000x34_S34x128_S20000x128_1_0_0_1_n_n_wf : DotDims.WF S20000x34 S34x128 S20000x128 [1] [0] [0] [1] [] []
  dot_S20000x128_S128x64_S20000x64_1_0_0_1_n_n_wf : DotDims.WF S20000x128 S128x64 S20000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x51.size a ≤ S1000000x51.size a
  hwx0_0 : ∀ i : grid0.Coords, EltTy.bits .f32 = 32 ∨ (Rect.block (s := S1000000x51) S20000x51.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S51x17.size a ≤ S51x17.size a
  hwx0_1 : ∀ i : grid0.Coords, EltTy.bits .f32 = 32 ∨ (Rect.block (s := S51x17) S51x17.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S51x17.size a ≤ S51x17.size a
  hwx0_2 : ∀ i : grid0.Coords, EltTy.bits .f32 = 32 ∨ (Rect.block (s := S51x17) S51x17.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S34x128.size a ≤ S34x128.size a
  hwx0_3 : ∀ i : grid0.Coords, EltTy.bits .f32 = 32 ∨ (Rect.block (s := S34x128) S34x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S20000x64.size a ≤ S1000000x64.size a
  hwx0_7 : ∀ i : grid0.Coords, EltTy.bits .f32 = 32 ∨ (Rect.block (s := S1000000x64) S20000x64.size (cc0_transform_7 i) (hinb0_7 i)).WholeWords (EltTy.packing .f32)

variable [Facts₀]

def gather_S34x128_S34x1_S34x128_1_0_n_n_0_1_1128 : GatherDims S34x128 S34x1 S34x128 where
  offsetDims := [1]
  collapsedSliceDims := [0]
  operandBatchingDims := []
  startIndicesBatchingDims := []
  startIndexMap := [0]
  indexVectorDim := 1
  sliceSizes := ![1, 128]
  wf := gather_S34x128_S34x1_S34x128_1_0_n_n_0_1_1128_wf
def dot_S20000x51_S51x17_S20000x17_1_0_0_1_n_n : DotDims S20000x51 S51x17 S20000x17 where
  lhsContracting := [1]
  rhsContracting := [0]
  lhsNonContracting := [0]
  rhsNonContracting := [1]
  lhsBatch := []
  rhsBatch := []
  wf := dot_S20000x51_S51x17_S20000x17_1_0_0_1_n_n_wf
def dot_S20000x34_S34x128_S20000x128_1_0_0_1_n_n : DotDims S20000x34 S34x128 S20000x128 where
  lhsContracting := [1]
  rhsContracting := [0]
  lhsNonContracting := [0]
  rhsNonContracting := [1]
  lhsBatch := []
  rhsBatch := []
  wf := dot_S20000x34_S34x128_S20000x128_1_0_0_1_n_n_wf
def dot_S20000x128_S128x64_S20000x64_1_0_0_1_n_n : DotDims S20000x128 S128x64 S20000x64 where
  lhsContracting := [1]
  rhsContracting := [0]
  lhsNonContracting := [0]
  rhsNonContracting := [1]
  lhsBatch := []
  rhsBatch := []
  wf := dot_S20000x128_S128x64_S20000x64_1_0_0_1_n_n_wf

abbrev win0_0 : Pipeline.Window sig grid0 :=
  Pipeline.Window.ofSpec (Memref.whole main_v0) S20000x51.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_cst) S51x17.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_cst_0) S51x17.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S34x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S20000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1000000x17x3 : Shape := ⟨3, ![1000000, 17, 3]⟩
abbrev S34x128 : Shape := ⟨2, ![34, 128]⟩
abbrev S128 : Shape := ⟨1, ![128]⟩
abbrev S128x64 : Shape := ⟨2, ![128, 64]⟩
abbrev S64 : Shape := ⟨1, ![64]⟩
abbrev S1000000x17x2 : Shape := ⟨3, ![1000000, 17, 2]⟩
abbrev S1000000x1x2 : Shape := ⟨3, ![1000000, 1, 2]⟩
abbrev S1000000x2 : Shape := ⟨2, ![1000000, 2]⟩
abbrev S_ : Shape := ⟨0, ![]⟩
abbrev S1000000 : Shape := ⟨1, ![1000000]⟩
abbrev S1000000x17 : Shape := ⟨2, ![1000000, 17]⟩
abbrev S1000000x1 : Shape := ⟨2, ![1000000, 1]⟩
abbrev S1000000x17x1 : Shape := ⟨3, ![1000000, 17, 1]⟩
abbrev S1000000x34 : Shape := ⟨2, ![1000000, 34]⟩
abbrev S1000000x128 : Shape := ⟨2, ![1000000, 128]⟩
abbrev S1x128 : Shape := ⟨2, ![1, 128]⟩
abbrev S1000000x64 : Shape := ⟨2, ![1000000, 64]⟩
abbrev S1x64 : Shape := ⟨2, ![1, 64]⟩

abbrev nBuf : Space → Nat
  | .hbm => 70
  | .vmem => 0
  | .smem => 0
  | _ => 0

abbrev bufTy : (tb : Table) → Fin (tcTables nBuf tb) → BufTy
  | .hbm, ⟨0, _⟩ => ⟨S1000000x17x3, .f32⟩
  | .hbm, ⟨1, _⟩ => ⟨S34x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S1000000x17x2, .f32⟩
  | .hbm, ⟨6, _⟩ => ⟨S1000000x1x2, .f32⟩
  | .hbm, ⟨7, _⟩ => ⟨S1000000x2, .f32⟩
  | .hbm, ⟨8, _⟩ => ⟨S1000000x1x2, .f32⟩
  | .hbm, ⟨9, _⟩ => ⟨S1000000x2, .f32⟩
  | .hbm, ⟨10, _⟩ => ⟨S1000000x2, .f32⟩
  | .hbm, ⟨11, _⟩ => ⟨S_, .f32⟩
  | .hbm, ⟨12, _⟩ => ⟨S1000000x2, .f32⟩
  | .hbm, ⟨13, _⟩ => ⟨S1000000x2, .f32⟩
  | .hbm, ⟨14, _⟩ => ⟨S1000000x2, .f32⟩
  | .hbm, ⟨15, _⟩ => ⟨S_, .f32⟩
  | .hbm, ⟨16, _⟩ => ⟨S1000000, .f32⟩
  | .hbm, ⟨17, _⟩ => ⟨S_, .f32⟩
  | .hbm, ⟨18, _⟩ => ⟨S1000000, .f32⟩
  | .hbm, ⟨19, _⟩ => ⟨S1000000, .i1⟩
  | .hbm, ⟨20, _⟩ => ⟨S1000000x2, .f32⟩
  | .hbm, ⟨21, _⟩ => ⟨S_, .f32⟩
  | .hbm, ⟨22, _⟩ => ⟨S1000000, .f32⟩
  | .hbm, ⟨23, _⟩ => ⟨S_, .f32⟩
  | .hbm, ⟨24, _⟩ => ⟨S1000000, .f32⟩
  | .hbm, ⟨25, _⟩ => ⟨S1000000, .i1⟩
  | .hbm, ⟨26, _⟩ => ⟨S1000000, .i1⟩
  | .hbm, ⟨27, _⟩ => ⟨S1000000x17x2, .f32⟩
  | .hbm, ⟨28, _⟩ => ⟨S_, .f32⟩
  | .hbm, ⟨29, _⟩ => ⟨S1000000x17, .f32⟩
  | .hbm, ⟨30, _⟩ => ⟨S_, .f32⟩
  | .hbm, ⟨31, _⟩ => ⟨S1000000x17, .f32⟩
  | .hbm, ⟨32, _⟩ => ⟨S1000000x17, .i1⟩
  | .hbm, ⟨33, _⟩ => ⟨S1000000x17, .f32⟩
  | .hbm, ⟨34, _⟩ => ⟨S_, .f32⟩
  | .hbm, ⟨35, _⟩ => ⟨S1000000, .f32⟩
  | .hbm, ⟨36, _⟩ => ⟨S1000000x1, .f32⟩
  | .hbm, ⟨37, _⟩ => ⟨S1000000x17x1, .f32⟩
  | .hbm, ⟨38, _⟩ => ⟨S1000000x17x2, .f32⟩
  | .hbm, ⟨39, _⟩ => ⟨S1000000x17x2, .f32⟩
  | .hbm, ⟨40, _⟩ => ⟨S_, .f32⟩
  | .hbm, ⟨41, _⟩ => ⟨S1000000x2, .f32⟩
  | .hbm, ⟨42, _⟩ => ⟨S_, .f32⟩
  | .hbm, ⟨43, _⟩ => ⟨S1000000x1, .f32⟩
  | .hbm, ⟨44, _⟩ => ⟨S1000000x1, .f32⟩
  | .hbm, ⟨45, _⟩ => ⟨S1000000x2, .f32⟩
  | .hbm, ⟨46, _⟩ => ⟨S1000000x2, .f32⟩
  | .hbm, ⟨47, _⟩ => ⟨S_, .f32⟩
  | .hbm, ⟨48, _⟩ => ⟨S1000000x1, .f32⟩
  | .hbm, ⟨49, _⟩ => ⟨S1000000x1, .i1⟩
  | .hbm, ⟨50, _⟩ => ⟨S1000000x2, .i1⟩
  | .hbm, ⟨51, _⟩ => ⟨S1000000x2, .f32⟩
  | .hbm, ⟨52, _⟩ => ⟨S1000000x1, .i1⟩
  | .hbm, ⟨53, _⟩ => ⟨S1000000x2, .i1⟩
  | .hbm, ⟨54, _⟩ => ⟨S1000000x2, .f32⟩
  | .hbm, ⟨55, _⟩ => ⟨S1000000x1x2, .f32⟩
  | .hbm, ⟨56, _⟩ => ⟨S1000000x17x2, .f32⟩
  | .hbm, ⟨57, _⟩ => ⟨S1000000x17x2, .f32⟩
  | .hbm, ⟨58, _⟩ => ⟨S1000000x34, .f32⟩
  | .hbm, ⟨59, _⟩ => ⟨S1000000x128, .f32⟩
  | .hbm, ⟨60, _⟩ => ⟨S1x128, .f32⟩
  | .hbm, ⟨61, _⟩ => ⟨S1000000x128, .f32⟩
  | .hbm, ⟨62, _⟩ => ⟨S1000000x128, .f32⟩
  | .hbm, ⟨63, _⟩ => ⟨S_, .f32⟩
  | .hbm, ⟨64, _⟩ => ⟨S1000000x128, .f32⟩
  | .hbm, ⟨65, _⟩ => ⟨S1000000x128, .f32⟩
  | .hbm, ⟨66, _⟩ => ⟨S1000000x64, .f32⟩
  | .hbm, ⟨67, _⟩ => ⟨S1x64, .f32⟩
  | .hbm, ⟨68, _⟩ => ⟨S1000000x64, .f32⟩
  | .hbm, ⟨69, _⟩ => ⟨S1000000x64, .f32⟩
  | _, _ => ⟨S1000000x17x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_9 : Ref sig .tc := ⟨.hbm, 47, rfl⟩
abbrev main_v32 : Ref sig .tc := ⟨.hbm, 48, rfl⟩
abbrev main_v33 : Ref sig .tc := ⟨.hbm, 49, rfl⟩
abbrev main_call0_v0 : Ref sig .tc := ⟨.hbm, 50, rfl⟩
abbrev main_v34 : Ref sig .tc := ⟨.hbm, 51, rfl⟩
abbrev main_v35 : Ref sig .tc := ⟨.hbm, 52, rfl⟩
abbrev main_call1_v0 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_call2_cst : Ref sig .tc := ⟨.hbm, 63, rfl⟩
abbrev main_call2_v0 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩

abbrev nD : Nat := 1
abbrev τ : Topo := Topo.v7x

variable {F : FTy → Type} [FloatOps F]

class Facts₀ : Prop where
  slices_S1000000x17x3_S1000000x17x2_0_0_0 : S1000000x17x3.Slices ![0, 0, 0] S1000000x17x2
  slices_S1000000x17x2_S1000000x1x2_0_11_0 : S1000000x17x2.Slices ![0, 11, 0] S1000000x1x2
  shapeCasts_S1000000x1x2_S1000000x2 : S1000000x1x2.ShapeCasts S1000000x2
  slices_S1000000x17x2_S1000000x1x2_0_12_0 : S1000000x17x2.Slices ![0, 12, 0] S1000000x1x2
  bcast_S_S1000000x2 : S_.BroadcastsInDim S1000000x2 (![] : Fin 0 → Fin S1000000x2.rank)
  reducesTo_S1000000x2_S1000000_d1 : S1000000x2.ReducesTo [1] S1000000
  h_S_ : 0 < S_.numel
  bcast_S_S1000000 : S_.BroadcastsInDim S1000000 (![] : Fin 0 → Fin S1000000.rank)
  reducesTo_S1000000x17x2_S1000000x17_d2 : S1000000x17x2.ReducesTo [2] S1000000x17
  bcast_S_S1000000x17 : S_.BroadcastsInDim S1000000x17 (![] : Fin 0 → Fin S1000000x17.rank)
  reducesTo_S1000000x17_S1000000_d1 : S1000000x17.ReducesTo [1] S1000000
  bcast_S1000000_S1000000x1_0 : S1000000.BroadcastsInDim S1000000x1 (![0] : Fin 1 → Fin S1000000x1.rank)
  bcast_S1000000x17_S1000000x17x1_0_1 : S1000000x17.BroadcastsInDim S1000000x17x1 (![0, 1] : Fin 2 → Fin S1000000x17x1.rank)
  bcast_S1000000x17x1_S1000000x17x2_0_1_2 : S1000000x17x1.BroadcastsInDim S1000000x17x2 (![0, 1, 2] : Fin 3 → Fin S1000000x17x2.rank)
  reducesTo_S1000000x17x2_S1000000x2_d1 : S1000000x17x2.ReducesTo [1] S1000000x2
  bcast_S_S1000000x1 : S_.BroadcastsInDim S1000000x1 (![] : Fin 0 → Fin S1000000x1.rank)
  bcast_S1000000x1_S1000000x2_0_1 : S1000000x1.BroadcastsInDim S1000000x2 (![0, 1] : Fin 2 → Fin S1000000x2.rank)
  bcast_S1000000x2_S1000000x1x2_0_2 : S1000000x2.BroadcastsInDim S1000000x1x2 (![0, 2] : Fin 2 → Fin S1000000x1x2.rank)
  bcast_S1000000x1x2_S1000000x17x2_0_1_2 : S1000000x1x2.BroadcastsInDim S1000000x17x2 (![0, 1, 2] : Fin 3 → Fin S1000000x17x2.rank)
  shapeCasts_S1000000x17x2_S1000000x34 : S1000000x17x2.ShapeCasts S1000000x34
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S1000000x128 : S_.BroadcastsInDim S1000000x128 (![] : Fin 0 → Fin S1000000x128.rank)
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  dot_S1000000x34_S34x128_S1000000x128_1_0_0_1_n_n_wf : DotDims.WF S1000000x34 S34x128 S1000000x128 [1] [0] [0] [1] [] []
  dot_S1000000x128_S128x64_S1000000x64_1_0_0_1_n_n_wf : DotDims.WF S1000000x128 S128x64 S1000000x64 [1] [0] [0] [1] [] []

variable [Facts₀]

def dot_S1000000x34_S34x128_S1000000x128_1_0_0_1_n_n : DotDims S1000000x34 S34x128 S1000000x128 where
  lhsContracting := [1]
  rhsContracting := [0]
  lhsNonContracting := [0]
  rhsNonContracting := [1]
  lhsBatch := []
  rhsBatch := []
  wf := dot_S1000000x34_S34x128_S1000000x128_1_0_0_1_n_n_wf
def dot_S1000000x128_S128x64_S1000000x64_1_0_0_1_n_n : DotDims S1000000x128 S128x64 S1000000x64 where
  lhsContracting := [1]
  rhsContracting := [0]
  lhsNonContracting := [0]
  rhsNonContracting := [1]
  lhsBatch := []
  rhsBatch := []
  wf := dot_S1000000x128_S128x64_S1000000x64_1_0_0_1_n_n_wf

class Facts : Prop extends Facts₀ where

variable [Facts]
-- ==== Proof.PoseSpec.lean ====
/-
  The function both programs compute, written once, one pose at a time.

  A pose is 17 key points with an x and a y coordinate (the third number of each key point, a confidence, is never read).
  A key point is PRESENT when |x| + |y| > 0. The pose is centred on the mid-point of the two hips (key points 11 and 12)
  when both hips are present; otherwise on the mean of the present key points (the sum of the present coordinates over
  max(count, 1)) when there is one, and on the hip mid-point when there is none. The 34 centred coordinates, key point
  by key point (x then y), go through a dense layer 34 → 128 with a relu and a dense layer 128 → 64.

  Everything is over the extended reals; a float word is the extended real it denotes.
-/
import Idealize.ShloMosaic.PureOps.Ideal
import Idealize.ShloMosaic.PureOps.Ideal.Laws
import Idealize.ShloMosaic.Lib.ValueIdx

noncomputable section

namespace Cert.PoseSpec

open Idealize.ShloMosaic Idealize.ShloMosaic.ValueIdx
open scoped BigOperators

/-- One pose: key point `p`, coordinate `c` (0 is x, 1 is y). -/
abbrev Pose := Fin 17 → Fin 2 → EReal

/-- The words 0.0, 0.5 and 1.0 as the extended reals they denote. -/
def zeroW : EReal := Ideal.ofBits .f32 0x00000000#32
def halfW : EReal := Ideal.ofBits .f32 0x3F000000#32
def oneW : EReal := Ideal.ofBits .f32 0x3F800000#32

/-- |x| + |y| of key point `p`. -/
def mag (x : Pose) (p : Fin 17) : EReal := max (x p 0) (-(x p 0)) + max (x p 1) (-(x p 1))

/-- Key point `p` is present: |x| + |y| > 0, as a one-bit word. -/
def presentBit (x : Pose) (p : Fin 17) : BitVec 1 := Ideal.cmp .ogt (mag x p) zeroW

/-- 1 for a present key point, 0 for an absent one. -/
def present (x : Pose) (p : Fin 17) : EReal := (((presentBit x p).toNat : ℝ) : EReal)

/-- The mid-point of the two hips, coordinate `c`. -/
def hip (x : Pose) (c : Fin 2) : EReal := (x 11 c + x 12 c) * halfW

/-- Both hips are present. -/
def hipValid (x : Pose) : BitVec 1 := IntOp.andi (presentBit x 11) (presentBit x 12)

/-- The number of present key points. -/
def count (x : Pose) : EReal := ∑ p : Fin 17, present x p

/-- The mean of the present key points, coordinate `c`: their sum over max(count, 1). -/
def mean (x : Pose) (c : Fin 2) : EReal := Ideal.div (∑ p : Fin 17, x p c * present x p) (max (count x) oneW)

/-- The centre: the hip mid-point when both hips are present, else the mean of the present key points when there is
    one, else the hip mid-point again. -/
def centre (x : Pose) (c : Fin 2) : EReal :=
  Scalar.select (hipValid x) (hip x c) (Scalar.select (Ideal.cmp .ogt (count x) zeroW) (mean x c) (hip x c))

/-- The centred coordinates. -/
def centred (x : Pose) (p : Fin 17) (c : Fin 2) : EReal := x p c - centre x c

/-- The centred coordinates as one vector of 34: entry `j` is coordinate `j % 2` of key point `j / 2`. -/
def flat (x : Pose) (j : Fin 34) : EReal :=
  centred x ⟨j.val / 2, by have := j.isLt; omega⟩ ⟨j.val % 2, by omega⟩

/-- The other order of the 34 coordinates, all x then all y: entry `k` of that order is entry `unzip k` of the key-point
    by key-point order (`k < 17` is the x of key point `k`, `k ≥ 17` the y of key point `k - 17`). -/
def unzip (k : Fin 34) : Fin 34 :=
  if h : k.val < 17 then ⟨2 * k.val, by omega⟩ else ⟨2 * (k.val - 17) + 1, by have := k.isLt; omega⟩

/-- The hidden layer: relu of the flat vector times the 34 × 128 weights plus the bias. -/
def hidden (x : Pose) (W1 : Fin 34 → Fin 128 → EReal) (b1 : Fin 128 → EReal) (n : Fin 128) : EReal :=
  max ((∑ j : Fin 34, flat x j * W1 j n) + b1 n) zeroW

/-- The embedding: the hidden layer times the 128 × 64 weights plus the bias. -/
def embed (x : Pose) (W1 : Fin 34 → Fin 128 → EReal) (b1 : Fin 128 → EReal) (W2 : Fin 128 → Fin 64 → EReal)
    (b2 : Fin 64 → EReal) (o : Fin 64) : EReal :=
  (∑ n : Fin 128, hidden x W1 b1 n * W2 n o) + b2 o

/-- Pose `r` of the key-point array: the first two of each key point's three numbers. -/
def poseOf (kp : FVec Ideal ⟨3, ![1000000, 17, 3]⟩ .f32) (r : Fin 1000000) : Pose :=
  fun p c => kp (ix3 r p ⟨c.val, by have := c.isLt; omega⟩)

/-- Entry (r, o) of the result: the embedding of pose `r`, component `o`. -/
def entry (kp : FVec Ideal ⟨3, ![1000000, 17, 3]⟩ .f32) (W1 : FVec Ideal ⟨2, ![34, 128]⟩ .f32)
    (b1 : FVec Ideal ⟨1, ![128]⟩ .f32) (W2 : FVec Ideal ⟨2, ![128, 64]⟩ .f32) (b2 : FVec Ideal ⟨1, ![64]⟩ .f32)
    (r : Fin 1000000) (o : Fin 64) : EReal :=
  embed (poseOf kp r) (fun j n => W1 (ix2 j n)) (fun n => b1 (ix1 n)) (fun n o => W2 (ix2 n o)) (fun o => b2 (ix1 o)) o

/-- The whole result array as one function of the five argument arrays. -/
def G (kp : FVec Ideal ⟨3, ![1000000, 17, 3]⟩ .f32) (W1 : FVec Ideal ⟨2, ![34, 128]⟩ .f32)
    (b1 : FVec Ideal ⟨1, ![128]⟩ .f32) (W2 : FVec Ideal ⟨2, ![128, 64]⟩ .f32) (b2 : FVec Ideal ⟨1, ![64]⟩ .f32) :
    FVec Ideal ⟨2, ![1000000, 64]⟩ .f32 :=
  fun i => entry kp W1 b1 W2 b2 (i 0) (i 1)

theorem G_apply (kp : FVec Ideal ⟨3, ![1000000, 17, 3]⟩ .f32) (W1 : FVec Ideal ⟨2, ![34, 128]⟩ .f32)
    (b1 : FVec Ideal ⟨1, ![128]⟩ .f32) (W2 : FVec Ideal ⟨2, ![128, 64]⟩ .f32) (b2 : FVec Ideal ⟨1, ![64]⟩ .f32)
    (r : Fin 1000000) (o : Fin 64) : G kp W1 b1 W2 b2 (ix2 r o) = entry kp W1 b1 W2 b2 r o := rfl

end Cert.PoseSpec

end
-- ==== Proof.RefIsSpec.lean ====
/-
  The reference program computes the specification: every entry of its result is the embedding of one pose.

  The reference is read one operation at a time, each at explicit coordinates: pose `r`, key point `p`, coordinate `c`.
  The steps follow the reference's own order: the x and y of every key
  point; the two hips and their mid-point; |x| + |y| of the hips and of every key point and the tests |x| + |y| > 0; the
  number of present key points; the masked sum and the mean; the two choices that give the centre; the centred
  coordinates laid out as one vector of 34; the two dense layers.
-/
import proofs.«174692_j85134841741850_2_alg».proof.Proof.RefReadPatched
import proofs.«174692_j85134841741850_2_alg».proof.Proof.PoseSpec

noncomputable section

namespace Cert.PoseRef

open Cert.ReferenceIdeal Cert.ReferenceIdeal.Read Cert.PoseSpec Idealize.ShloMosaic Idealize.ShloMosaic.ValueIdx
open scoped BigOperators

/-- The key-point array. -/
abbrev KP := FVec Ideal S1000000x17x3 .f32

/-- Two indices of rank 1, 2 or 3 with the same coordinates are equal. -/
local macro "ix_rfl1" : tactic => `(tactic| exact funext fun a => Fin.ext (by match a with | ⟨0, _⟩ => rfl))
local macro "ix_rfl2" : tactic => `(tactic| exact funext fun a => Fin.ext (by match a with | ⟨0, _⟩ => rfl | ⟨1, _⟩ => rfl))
local macro "ix_rfl3" : tactic =>
  `(tactic| exact funext fun a => Fin.ext (by match a with | ⟨0, _⟩ => rfl | ⟨1, _⟩ => rfl | ⟨2, _⟩ => rfl))

/-! ## The x and y of every key point -/

/-- The slice keeps the first two of each key point's three numbers. -/
theorem v0_at (x0 : KP) (r : Fin 1000000) (p : Fin 17) (c : Fin 2) :
    val_main_v0 (F := Ideal) x0 (ix3 r p c) = poseOf x0 r p c := by
  rw [val_main_v0_apply]
  exact congrArg x0 (by ix_rfl3)

/-! ## The two hips and their mid-point -/

/-- Row 11 of the slice, kept as a row of one. -/
theorem v1_at (x0 : KP) (r : Fin 1000000) (c : Fin 2) :
    val_main_v1 (F := Ideal) x0 (ix3 r (0 : Fin 1) c) = poseOf x0 r 11 c := by
  rw [val_main_v1_apply, show idx_main_v1 (ix3 r (0 : Fin 1) c) = ix3 r (11 : Fin 17) c from by ix_rfl3]
  exact v0_at x0 r 11 c

/-- Dropping the axis of size one: entry (r, c) of the result is entry (r, 0, c). -/
theorem reshape_hip (r : Fin 1000000) (c : Fin 2) : idx_main_v2 (ix2 r c) = ix3 r (0 : Fin 1) c := by
  refine funext fun a => Fin.ext ?_
  have hr := r.isLt
  have hc := c.isLt
  match a with
  | ⟨0, _⟩ => show (r.val * 2 + c.val) / 2 = r.val; omega
  | ⟨1, _⟩ => rfl
  | ⟨2, _⟩ => show (r.val * 2 + c.val) % 2 = c.val; omega

/-- The left hip. -/
theorem v2_at (x0 : KP) (r : Fin 1000000) (c : Fin 2) :
    val_main_v2 (F := Ideal) x0 (ix2 r c) = poseOf x0 r 11 c := by
  rw [val_main_v2_apply, reshape_hip]
  exact v1_at x0 r c

/-- Row 12 of the slice, kept as a row of one. -/
theorem v3_at (x0 : KP) (r : Fin 1000000) (c : Fin 2) :
    val_main_v3 (F := Ideal) x0 (ix3 r (0 : Fin 1) c) = poseOf x0 r 12 c := by
  rw [val_main_v3_apply, show idx_main_v3 (ix3 r (0 : Fin 1) c) = ix3 r (12 : Fin 17) c from by ix_rfl3]
  exact v0_at x0 r 12 c

/-- The right hip. -/
theorem v4_at (x0 : KP) (r : Fin 1000000) (c : Fin 2) :
    val_main_v4 (F := Ideal) x0 (ix2 r c) = poseOf x0 r 12 c := by
  rw [val_main_v4_apply, show idx_main_v4 (ix2 r c) = ix3 r (0 : Fin 1) c from reshape_hip r c]
  exact v3_at x0 r c

/-- The hip mid-point: (left + right) · 0.5. -/
theorem v7_at (x0 : KP) (r : Fin 1000000) (c : Fin 2) :
    val_main_v7 (F := Ideal) x0 (ix2 r c) = hip (poseOf x0 r) c := by
  rw [val_main_v7_apply, val_main_v5_apply, val_main_v6_apply, val_main_cst_apply, v2_at, v4_at]
  rfl

/-! ## The two hip tests -/

/-- |x| + |y| of the left hip. -/
theorem v9_at (x0 : KP) (r : Fin 1000000) :
    val_main_v9 (F := Ideal) x0 (ix1 r) = mag (poseOf x0 r) 11 := by
  have hk : ∀ k : Fin 2, val_main_v8 (F := Ideal) x0 (idx_main_v9 (ix1 r) k)
      = max (poseOf x0 r 11 k) (-(poseOf x0 r 11 k)) := fun k => by
    rw [show idx_main_v9 (ix1 r) k = ix2 r k from by ix_rfl2, val_main_v8_apply, v2_at]
    rfl
  rw [val_main_v9_apply, val_main_cst_0_apply, Finset.sum_congr rfl (fun k _ => hk k), Fin.sum_univ_two]
  show Ideal.ofBits .f32 0x00000000#32 + _ = _
  rw [Ideal.ofBits_zero_f32, zero_add]
  rfl

/-- The left hip is present. -/
theorem v11_at (x0 : KP) (r : Fin 1000000) :
    val_main_v11 (F := Ideal) x0 (ix1 r) = presentBit (poseOf x0 r) 11 := by
  rw [val_main_v11_apply, v9_at, val_main_v10_apply, val_main_cst_1_apply]
  rfl

/-- |x| + |y| of the right hip. -/
theorem v13_at (x0 : KP) (r : Fin 1000000) :
    val_main_v13 (F := Ideal) x0 (ix1 r) = mag (poseOf x0 r) 12 := by
  have hk : ∀ k : Fin 2, val_main_v12 (F := Ideal) x0 (idx_main_v13 (ix1 r) k)
      = max (poseOf x0 r 12 k) (-(poseOf x0 r 12 k)) := fun k => by
    rw [show idx_main_v13 (ix1 r) k = ix2 r k from by ix_rfl2, val_main_v12_apply, v4_at]
    rfl
  rw [val_main_v13_apply, val_main_cst_2_apply, Finset.sum_congr rfl (fun k _ => hk k), Fin.sum_univ_two]
  show Ideal.ofBits .f32 0x00000000#32 + _ = _
  rw [Ideal.ofBits_zero_f32, zero_add]
  rfl

/-- The right hip is present. -/
theorem v15_at (x0 : KP) (r : Fin 1000000) :
    val_main_v15 (F := Ideal) x0 (ix1 r) = presentBit (poseOf x0 r) 12 := by
  rw [val_main_v15_apply, v13_at, val_main_v14_apply, val_main_cst_3_apply]
  rfl

/-- Both hips are present. -/
theorem v16_at (x0 : KP) (r : Fin 1000000) :
    val_main_v16 (F := Ideal) x0 (ix1 r) = hipValid (poseOf x0 r) := by
  rw [val_main_v16_apply, v11_at, v15_at]
  rfl

/-! ## The presence mask and the count -/

/-- |x| + |y| of key point `p`. -/
theorem v18_at (x0 : KP) (r : Fin 1000000) (p : Fin 17) :
    val_main_v18 (F := Ideal) x0 (ix2 r p) = mag (poseOf x0 r) p := by
  have hk : ∀ k : Fin 2, val_main_v17 (F := Ideal) x0 (idx_main_v18 (ix2 r p) k)
      = max (poseOf x0 r p k) (-(poseOf x0 r p k)) := fun k => by
    rw [show idx_main_v18 (ix2 r p) k = ix3 r p k from by ix_rfl3, val_main_v17_apply, v0_at]
    rfl
  rw [val_main_v18_apply, val_main_cst_4_apply, Finset.sum_congr rfl (fun k _ => hk k), Fin.sum_univ_two]
  show Ideal.ofBits .f32 0x00000000#32 + _ = _
  rw [Ideal.ofBits_zero_f32, zero_add]
  rfl

/-- Key point `p` is present. -/
theorem v20_at (x0 : KP) (r : Fin 1000000) (p : Fin 17) :
    val_main_v20 (F := Ideal) x0 (ix2 r p) = presentBit (poseOf x0 r) p := by
  rw [val_main_v20_apply, v18_at, val_main_v19_apply, val_main_cst_5_apply]
  rfl

/-- The mask as a number: 1 for a present key point, 0 for an absent one. -/
theorem v21_at (x0 : KP) (r : Fin 1000000) (p : Fin 17) :
    val_main_v21 (F := Ideal) x0 (ix2 r p) = present (poseOf x0 r) p := by
  rw [val_main_v21_apply, v20_at]
  rfl

/-- The number of present key points. -/
theorem v22_at (x0 : KP) (r : Fin 1000000) :
    val_main_v22 (F := Ideal) x0 (ix1 r) = count (poseOf x0 r) := by
  have hk : ∀ k : Fin 17, val_main_v21 (F := Ideal) x0 (idx_main_v22 (ix1 r) k) = present (poseOf x0 r) k := fun k => by
    rw [show idx_main_v22 (ix1 r) k = ix2 r k from by ix_rfl2, v21_at]
  rw [val_main_v22_apply, val_main_cst_6_apply, Finset.sum_congr rfl (fun k _ => hk k)]
  show Ideal.ofBits .f32 0x00000000#32 + _ = _
  rw [Ideal.ofBits_zero_f32, zero_add]
  rfl

/-- The count, kept as a column. -/
theorem v23_at (x0 : KP) (r : Fin 1000000) :
    val_main_v23 (F := Ideal) x0 (ix2 r (0 : Fin 1)) = count (poseOf x0 r) := by
  rw [val_main_v23_apply, show idx_main_v23 (ix2 r (0 : Fin 1)) = ix1 r from by ix_rfl1]
  exact v22_at x0 r

/-! ## The masked sum and the mean -/

/-- The mask spread over the two coordinates. -/
theorem v25_at (x0 : KP) (r : Fin 1000000) (p : Fin 17) (c : Fin 2) :
    val_main_v25 (F := Ideal) x0 (ix3 r p c) = present (poseOf x0 r) p := by
  rw [val_main_v25_apply, show idx_main_v25 (ix3 r p c) = ix3 r p (0 : Fin 1) from by ix_rfl3,
    val_main_v24_apply, show idx_main_v24 (ix3 r p (0 : Fin 1)) = ix2 r p from by ix_rfl2]
  exact v21_at x0 r p

/-- A coordinate times the mask. -/
theorem v26_at (x0 : KP) (r : Fin 1000000) (p : Fin 17) (c : Fin 2) :
    val_main_v26 (F := Ideal) x0 (ix3 r p c) = poseOf x0 r p c * present (poseOf x0 r) p := by
  rw [val_main_v26_apply, v0_at, v25_at]
  rfl

/-- The sum of the present key points' coordinate `c`. -/
theorem v27_at (x0 : KP) (r : Fin 1000000) (c : Fin 2) :
    val_main_v27 (F := Ideal) x0 (ix2 r c) = ∑ p : Fin 17, poseOf x0 r p c * present (poseOf x0 r) p := by
  have hk : ∀ k : Fin 17, val_main_v26 (F := Ideal) x0 (idx_main_v27 (ix2 r c) k)
      = poseOf x0 r k c * present (poseOf x0 r) k := fun k => by
    rw [show idx_main_v27 (ix2 r c) k = ix3 r k c from by ix_rfl3, v26_at]
  rw [val_main_v27_apply, val_main_cst_7_apply, Finset.sum_congr rfl (fun k _ => hk k)]
  show Ideal.ofBits .f32 0x00000000#32 + _ = _
  rw [Ideal.ofBits_zero_f32, zero_add]

/-- max(count, 1), as a column. -/
theorem v29_at (x0 : KP) (r : Fin 1000000) :
    val_main_v29 (F := Ideal) x0 (ix2 r (0 : Fin 1)) = max (count (poseOf x0 r)) oneW := by
  rw [val_main_v29_apply, v23_at, val_main_v28_apply, val_main_cst_8_apply]
  rfl

/-- The mean of the present key points. -/
theorem v31_at (x0 : KP) (r : Fin 1000000) (c : Fin 2) :
    val_main_v31 (F := Ideal) x0 (ix2 r c) = mean (poseOf x0 r) c := by
  rw [val_main_v31_apply, v27_at, val_main_v30_apply,
    show idx_main_v30 (ix2 r c) = ix2 r (0 : Fin 1) from by ix_rfl2, v29_at]
  rfl

/-! ## The centre -/

/-- There is a present key point. -/
theorem v33_at (x0 : KP) (r : Fin 1000000) :
    val_main_v33 (F := Ideal) x0 (ix2 r (0 : Fin 1)) = Ideal.cmp .ogt (count (poseOf x0 r)) zeroW := by
  rw [val_main_v33_apply, v23_at, val_main_v32_apply, val_main_cst_9_apply]
  rfl

/-- The fallback: the mean when there is a present key point, else the hip mid-point. -/
theorem v34_at (x0 : KP) (r : Fin 1000000) (c : Fin 2) :
    val_main_v34 (F := Ideal) x0 (ix2 r c)
      = Scalar.select (Ideal.cmp .ogt (count (poseOf x0 r)) zeroW) (mean (poseOf x0 r) c) (hip (poseOf x0 r) c) := by
  rw [val_main_v34_apply, val_main_call0_v0_apply,
    show idx_main_call0_v0 (ix2 r c) = ix2 r (0 : Fin 1) from by ix_rfl2, v33_at, v31_at, v7_at]

/-- The centre: the hip mid-point when both hips are present, else the fallback. -/
theorem v36_at (x0 : KP) (r : Fin 1000000) (c : Fin 2) :
    val_main_v36 (F := Ideal) x0 (ix2 r c) = centre (poseOf x0 r) c := by
  rw [val_main_v36_apply, val_main_call1_v0_apply,
    show idx_main_call1_v0 (ix2 r c) = ix2 r (0 : Fin 1) from by ix_rfl2, val_main_v35_apply,
    show idx_main_v35 (ix2 r (0 : Fin 1)) = ix1 r from by ix_rfl1, v16_at, v7_at, v34_at]
  rfl

/-! ## The centred coordinates, and their layout as one vector of 34 -/

/-- The centre spread over the 17 key points. -/
theorem v38_at (x0 : KP) (r : Fin 1000000) (p : Fin 17) (c : Fin 2) :
    val_main_v38 (F := Ideal) x0 (ix3 r p c) = centre (poseOf x0 r) c := by
  rw [val_main_v38_apply, show idx_main_v38 (ix3 r p c) = ix3 r (0 : Fin 1) c from by ix_rfl3,
    val_main_v37_apply, show idx_main_v37 (ix3 r (0 : Fin 1) c) = ix2 r c from by ix_rfl2]
  exact v36_at x0 r c

/-- The centred coordinates. -/
theorem v39_at (x0 : KP) (r : Fin 1000000) (p : Fin 17) (c : Fin 2) :
    val_main_v39 (F := Ideal) x0 (ix3 r p c) = centred (poseOf x0 r) p c := by
  rw [val_main_v39_apply, v0_at, v38_at]
  rfl

/-- Entry `j` of a row of 34 is coordinate `j % 2` of key point `j / 2`. -/
theorem reshape_flat (r : Fin 1000000) (j : Fin 34) :
    idx_main_v40 (ix2 r j) = ix3 r (⟨j.val / 2, by have := j.isLt; omega⟩ : Fin 17) (⟨j.val % 2, by omega⟩ : Fin 2) := by
  refine funext fun a => Fin.ext ?_
  have hr := r.isLt
  have hj := j.isLt
  match a with
  | ⟨0, _⟩ => show (r.val * 34 + j.val) / 34 = r.val; omega
  | ⟨1, _⟩ => show (r.val * 34 + j.val) / 2 % 17 = j.val / 2; omega
  | ⟨2, _⟩ => show (r.val * 34 + j.val) % 2 = j.val % 2; omega

/-- The centred coordinates as one vector of 34, key point by key point. -/
theorem v40_at (x0 : KP) (r : Fin 1000000) (j : Fin 34) :
    val_main_v40 (F := Ideal) x0 (ix2 r j) = flat (poseOf x0 r) j := by
  rw [val_main_v40_apply, reshape_flat, v39_at]
  rfl

/-! ## The two dense layers -/

/-- The first layer before its bias: the flat vector times the weights. -/
theorem v41_at (x0 : KP) (x1 : FVec Ideal S34x128 .f32) (r : Fin 1000000) (n : Fin 128) :
    val_main_v41 (F := Ideal) x0 x1 (ix2 r n) = ∑ j : Fin 34, flat (poseOf x0 r) j * x1 (ix2 j n) := by
  rw [val_main_v41_apply]
  refine Finset.sum_congr rfl fun k _ => ?_
  rw [show lidx_main_v41 (ix2 r n) k = ix2 r k from by ix_rfl2,
    show ridx_main_v41 (ix2 r n) k = ix2 k n from by ix_rfl2, v40_at]

/-- The bias of the first layer, spread over the rows. -/
theorem v43_at (x2 : FVec Ideal S128 .f32) (r : Fin 1000000) (n : Fin 128) :
    val_main_v43 (F := Ideal) x2 (ix2 r n) = x2 (ix1 n) := by
  rw [val_main_v43_apply, show idx_main_v43 (ix2 r n) = ix2 (0 : Fin 1) n from by ix_rfl2,
    val_main_v42_apply, show idx_main_v42 (ix2 (0 : Fin 1) n) = ix1 n from by ix_rfl1]

/-- The hidden layer. -/
theorem v45_at (x0 : KP) (x1 : FVec Ideal S34x128 .f32) (x2 : FVec Ideal S128 .f32) (r : Fin 1000000) (n : Fin 128) :
    val_main_v45 (F := Ideal) x0 x1 x2 (ix2 r n)
      = hidden (poseOf x0 r) (fun j n => x1 (ix2 j n)) (fun n => x2 (ix1 n)) n := by
  rw [val_main_v45_apply, val_main_v44_apply, v41_at, v43_at, val_main_call2_v0_apply, val_main_call2_cst_apply]
  rfl

/-- The second layer before its bias. -/
theorem v46_at (x0 : KP) (x1 : FVec Ideal S34x128 .f32) (x2 : FVec Ideal S128 .f32) (x3 : FVec Ideal S128x64 .f32)
    (r : Fin 1000000) (o : Fin 64) :
    val_main_v46 (F := Ideal) x0 x1 x2 x3 (ix2 r o)
      = ∑ n : Fin 128, hidden (poseOf x0 r) (fun j n => x1 (ix2 j n)) (fun n => x2 (ix1 n)) n * x3 (ix2 n o) := by
  rw [val_main_v46_apply]
  refine Finset.sum_congr rfl fun k _ => ?_
  rw [show lidx_main_v46 (ix2 r o) k = ix2 r k from by ix_rfl2,
    show ridx_main_v46 (ix2 r o) k = ix2 k o from by ix_rfl2, v45_at]

/-- The bias of the second layer, spread over the rows. -/
theorem v48_at (x4 : FVec Ideal S64 .f32) (r : Fin 1000000) (o : Fin 64) :
    val_main_v48 (F := Ideal) x4 (ix2 r o) = x4 (ix1 o) := by
  rw [val_main_v48_apply, show idx_main_v48 (ix2 r o) = ix2 (0 : Fin 1) o from by ix_rfl2,
    val_main_v47_apply, show idx_main_v47 (ix2 (0 : Fin 1) o) = ix1 o from by ix_rfl1]

/-- Entry (r, o) of the reference's result is the embedding of pose `r`, component `o`. -/
theorem v49_at (x0 : KP) (x1 : FVec Ideal S34x128 .f32) (x2 : FVec Ideal S128 .f32) (x3 : FVec Ideal S128x64 .f32)
    (x4 : FVec Ideal S64 .f32) (r : Fin 1000000) (o : Fin 64) :
    val_main_v49 (F := Ideal) x0 x1 x2 x3 x4 (ix2 r o) = entry x0 x1 x2 x3 x4 r o := by
  rw [val_main_v49_apply, v46_at, v48_at]
  rfl

/-- The reference computes the specification. -/
theorem ref_eq (x0 : FVec Ideal S1000000x17x3 .f32) (x1 : FVec Ideal S34x128 .f32) (x2 : FVec Ideal S128 .f32)
    (x3 : FVec Ideal S128x64 .f32) (x4 : FVec Ideal S64 .f32) :
    val_main_v49 (F := Ideal) x0 x1 x2 x3 x4 = G x0 x1 x2 x3 x4 := by
  funext i
  obtain ⟨r, o, rfl⟩ : ∃ (r : Fin 1000000) (o : Fin 64), i = ix2 r o := ⟨i 0, i 1, eq_ix2 i⟩
  rw [v49_at, G_apply]

end Cert.PoseRef

end
-- ==== Proof.LibDense.lean ====
/-
  General lemmas for dense (fully connected) layers, over variable extents, at the extended reals.

  * `plain_sum`: for the plain dimension numbers "M×K by K×N" (contract the left operand's axis 1 with the
    right operand's axis 0, no batch axis), the sum over the contraction index of the operands' products at the
    result index (i, j) is `∑ k : Fin K, l (i, k) * r (k, j)`.
  * `matmul_zero_plain` / `dotGeneral_plain`: hence a vector-unit matrix product into a zero accumulator, and the
    host's `dot_general`, read at (i, j), are both that sum.
  * `concat_cols_apply`: two matrices [n, a] and [n, b] laid side by side along axis 1, read at (r, k): the first at
    (r, k) when k < a, the second at (r, k − a) otherwise.
  * `spread_col_apply`: an [a, 1] column spread over b columns, read at (p, c), is the column at p.
  * `dense_apply`: a matrix product into the zero accumulator plus a [1, N] bias row spread down the rows, read at
    (r, j), is  (∑ k, l (r, k) * w (k, j)) + bias (0, j).
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibDense

open Idealize.ShloMosaic Idealize.ShloMosaic.ValueIdx

/-- The plain dimension numbers `<[1], [0], [0], [1], [], []>` over any well-formedness witness: two records with these
    axis lists differ only in that witness, so every printed record of this kind is one of these by unfolding. -/
abbrev plainOf {M K N : Nat}
    (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ :=
  { lhsContracting := [1], rhsContracting := [0], lhsNonContracting := [0], rhsNonContracting := [1],
    lhsBatch := [], rhsBatch := [], wf := wf }

section Plain
variable {M K N : Nat} (wf : DotDims.WF (⟨2, ![M, K]⟩ : Shape) ⟨2, ![K, N]⟩ ⟨2, ![M, N]⟩ [1] [0] [0] [1] [] [])

/-- The left operand's row is the result's row. -/
theorem lhs_row (i : (⟨2, ![M, N]⟩ : Shape).Idx) (q : (plainOf wf).contr.Idx) :
    ((plainOf wf).lhsIdx i q 0).val = (i 0).val := by
  unfold DotDims.lhsIdx
  rw [dif_neg (show ¬(0 : Fin 2) ∈ (plainOf wf).lhsBatch from List.not_mem_nil),
    dif_pos (show (0 : Fin 2) ∈ (plainOf wf).lhsNonContracting from List.mem_singleton.mpr rfl)]
  rfl

/-- The right operand's column is the result's column. -/
theorem rhs_col (i : (⟨2, ![M, N]⟩ : Shape).Idx) (q : (plainOf wf).contr.Idx) :
    ((plainOf wf).rhsIdx i q 1).val = (i 1).val := by
  unfold DotDims.rhsIdx
  rw [dif_neg (show ¬(1 : Fin 2) ∈ (plainOf wf).rhsBatch from List.not_mem_nil),
    dif_pos (show (1 : Fin 2) ∈ (plainOf wf).rhsNonContracting from List.mem_singleton.mpr rfl)]
  rfl

/-- The contraction sum of a plain product at (i, j), re-indexed by the one contracted coordinate. -/
theorem plain_sum (l : (⟨2, ![M, K]⟩ : Shape).Idx → EReal) (r : (⟨2, ![K, N]⟩ : Shape).Idx → EReal)
    (i : Fin M) (j : Fin N) :
    ∑ q : (plainOf wf).contr.Idx, l ((plainOf wf).lhsIdx (ix2 i j) q) * r ((plainOf wf).rhsIdx (ix2 i j) q)
      = ∑ k : Fin K, l (ix2 i k) * r (ix2 k j) := by
  rw [← Equiv.sum_comp (contrEquiv1 (plainOf wf) K rfl rfl).symm]
  refine Finset.sum_congr rfl fun k _ => ?_
  have hk := contrEquiv1_symm_val (plainOf wf) K rfl rfl k
  have el : (plainOf wf).lhsIdx (ix2 i j) ((contrEquiv1 (plainOf wf) K rfl rfl).symm k) = ix2 i k :=
    funext fun a => Fin.ext (by
      match a with
      | ⟨0, _⟩ => exact lhs_row wf _ _
      | ⟨1, _⟩ => exact ((plainOf wf).lhsIdx_val_of_single rfl _ _).trans hk)
  have er : (plainOf wf).rhsIdx (ix2 i j) ((contrEquiv1 (plainOf wf) K rfl rfl).symm k) = ix2 k j :=
    funext fun a => Fin.ext (by
      match a with
      | ⟨0, _⟩ => exact ((plainOf wf).rhsIdx_val_of_single rfl _ _).trans hk
      | ⟨1, _⟩ => exact rhs_col wf _ _)
  rw [el, er]

/-- A matrix product on the vector unit into the zero accumulator, read at (i, j): the plain sum. -/
theorem matmul_zero_plain {φ₁ φ₂ : FTy} (prec : Option ContractPrecision)
    (l : FVec Ideal (⟨2, ![M, K]⟩ : Shape) φ₁) (r : FVec Ideal (⟨2, ![K, N]⟩ : Shape) φ₂) (i : Fin M) (j : Fin N) :
    FloatOps.matmul (plainOf wf) prec l r (constant (⟨2, ![M, N]⟩ : Shape) .f32 0x00000000#32) (ix2 i j)
      = ∑ k : Fin K, l (ix2 i k) * r (ix2 k j) :=
  (Ideal.matmul_constant_zero_apply (plainOf wf) prec l r (ix2 i j)).trans (plain_sum wf l r i j)

/-- The host's `dot_general` with the plain dimension numbers, read at (i, j): the same sum. -/
theorem dotGeneral_plain {φ₁ φ₂ : FTy} (prec : Option ContractPrecision) (sched : HostSchedule)
    (l : FVec Ideal (⟨2, ![M, K]⟩ : Shape) φ₁) (r : FVec Ideal (⟨2, ![K, N]⟩ : Shape) φ₂) (i : Fin M) (j : Fin N) :
    FloatOps.dotGeneral (plainOf wf) prec sched l r (ix2 i j) = ∑ k : Fin K, l (ix2 i k) * r (ix2 k j) :=
  (Ideal.dotGeneral_apply (plainOf wf) prec sched l r (ix2 i j)).trans (plain_sum wf l r i j)

end Plain

section Layout
variable {α : Type}

/-- Two matrices side by side along axis 1, read at (r, k). -/
theorem concat_cols_apply {n a b c : Nat} (hc : a + b = c)
    (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ 1) (r : Fin n) (k : Fin c) :
    concatenate (⟨2, ![n, c]⟩ : Shape) 1 [⟨⟨2, ![n, a]⟩, x⟩, ⟨⟨2, ![n, b]⟩, y⟩] h (ix2 r k)
      = if hk : k.val < a then x (ix2 r ⟨k.val, hk⟩) else y (ix2 r ⟨k.val - a, by have := k.isLt; omega⟩) := by
  by_cases hk : k.val < a
  · rw [dif_pos hk]
    exact concatenate_pair_apply_left 1 x y h (ix2 r k) rfl (ix2 r ⟨k.val, hk⟩)
      (fun d => by match d with | ⟨0, _⟩ => rfl | ⟨1, _⟩ => rfl)
  · rw [dif_neg hk]
    refine concatenate_pair_apply_right 1 x y h (ix2 r k) rfl rfl (ix2 r ⟨k.val - a, by have := k.isLt; omega⟩)
      (fun d hd => by
        match d with
        | ⟨0, _⟩ => rfl
        | ⟨1, _⟩ => exact absurd rfl hd) ?_
    show k.val - a + a = k.val
    omega

/-- An [a, 1] column spread over b columns, read at (p, c): the column's entry of row p. -/
theorem spread_col_apply {a b : Nat} (v : (⟨2, ![a, 1]⟩ : Shape).Idx → α)
    (h : (⟨2, ![a, 1]⟩ : Shape).Broadcasts ⟨2, ![a, b]⟩) (p : Fin a) (c : Fin b) :
    broadcastTo (⟨2, ![a, b]⟩ : Shape) v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A dense layer on the vector unit read at (r, j): the product into the zero accumulator is the plain sum, the bias
    row spread down the rows is the bias at column j. -/
theorem dense_apply {n K N : Nat}
    (wf : DotDims.WF (⟨2, ![n, K]⟩ : Shape) ⟨2, ![K, N]⟩ ⟨2, ![n, N]⟩ [1] [0] [0] [1] [] []) {φ₁ φ₂ : FTy}
    (l : FVec Ideal (⟨2, ![n, K]⟩ : Shape) φ₁) (w : FVec Ideal (⟨2, ![K, N]⟩ : Shape) φ₂)
    (bias : FVec Ideal (⟨2, ![1, N]⟩ : Shape) .f32) (hbc : (⟨2, ![1, N]⟩ : Shape).Broadcasts ⟨2, ![n, N]⟩)
    (r : Fin n) (j : Fin N) :
    addf (matmul (plainOf wf) none l w (constant (⟨2, ![n, N]⟩ : Shape) .f32 0x00000000#32))
        (broadcastTo (⟨2, ![n, N]⟩ : Shape) bias hbc) (ix2 r j)
      = (∑ k : Fin K, l (ix2 r k) * w (ix2 k j)) + bias (ix2 (0 : Fin 1) j) :=
  congrArg₂ (· + ·) (matmul_zero_plain wf none l w r j) (broadcastTo_1b_ab_apply bias hbc r j)

end Cert.LibDense

end
-- ==== Proof.LibRows.lean ====
/-
  Rows of a matrix read at an index, over the extended reals: a vector laid out as a column and spread over the
  columns of a matrix reads, at (i, c), the vector's entry i; the maximum and the sum along a matrix's rows, and
  along the last axis of a rank-three array, are the fold of `max` and the `Fin`-indexed sum over that row's entries.
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

namespace Cert.LibRows

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- So a vector spread over the columns of a matrix reads, at `(p, c)`, its entry `p`. -/
theorem column_spread_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- Row `i` of a matrix with the column coordinate `k` put back is `(i, k)`. -/
theorem lift_row {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- Row `(p, i)` of a rank-three array with the last coordinate `k` put back is `(p, i, k)`. -/
theorem lift_last3 {n a b : ℕ} (h : (⟨3, ![n, a, b]⟩ : Shape).Reduces [2] (⟨2, ![n, a]⟩ : Shape)) (p : Fin n) (i : Fin a)
    (k : Fin ((⟨3, ![n, a, b]⟩ : Shape).size 2)) : h.lift (ix2 p i) k = ix3 p i (⟨k.val, k.isLt⟩ : Fin b) := by
  funext c; apply Fin.ext
  fin_cases c <;> rfl

/-- The maximum along a matrix's rows, folded from the accumulator's word: at row `i`, the fold of `max` over the row. -/
theorem rowMax_apply {a b : ℕ} (X : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (i : Fin a) :
    multiReduction .maximumf [1] ⟨1, ![a]⟩ X acc h hφ hacc (ix1 i)
      = (Finset.univ : Finset (Fin b)).fold max (Ideal.ofBits .f32 acc) (fun k => X (ix2 i k)) := by
  refine (Ideal.multiReduction_maximumf_single X acc h hφ hacc (ix1 i)).trans ?_
  have hf : (X ∘ h.lift (ix1 i)) = fun k : Fin b => X (ix2 i k) := funext fun k => congrArg X (lift_row h i k)
  exact congrArg (fun f => Finset.fold max (Ideal.ofBits .f32 acc) f (Finset.univ : Finset (Fin b))) hf

/-- The sum along a matrix's rows: at row `i`, the sum over the row. -/
theorem rowSum_apply {a b : ℕ} (X : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (i : Fin a) :
    multiReduction .add [1] ⟨1, ![a]⟩ X acc h hφ hacc (ix1 i) = ∑ k : Fin b, X (ix2 i k) := by
  refine (Ideal.multiReduction_add_single X acc h hφ hacc (ix1 i)).trans ?_
  exact Finset.sum_congr rfl fun k _ => congrArg X (lift_row h i k)

/-- Each row's maximum, taken once more against `c`, laid out as a column and spread over the columns: at `(p, q)`, the
    maximum of `c` and the fold of `max` over row `p`. -/
theorem spreadRowMax_apply {a b : ℕ} (X : FVec Ideal ⟨2, ![a, b]⟩ .f32) (c : Ideal .f32) (acc : BitVec 32)
    (h : (⟨2, ![a, b]⟩ : Shape).Reduces [1] (⟨1, ![a]⟩ : Shape)) (hφ : FKind.Formats .f32)
    (hacc : acc = FKind.maximumf.neutral .f32 hφ) (h1 : (⟨1, ![a]⟩ : Shape).ShapeCasts ⟨2, ![a, 1]⟩)
    (h2 : (⟨2, ![a, 1]⟩ : Shape).Broadcasts ⟨2, ![a, b]⟩) (p : Fin a) (q : Fin b) :
    broadcastTo ⟨2, ![a, b]⟩
        (shapeCast ⟨2, ![a, 1]⟩ (maximumf (broadcast ⟨1, ![a]⟩ c) (multiReduction .maximumf [1] ⟨1, ![a]⟩ X acc h hφ hacc)) h1) h2
        (ix2 p q)
      = max c ((Finset.univ : Finset (Fin b)).fold max (Ideal.ofBits .f32 acc) (fun k => X (ix2 p k))) := by
  refine (column_spread_apply _ h1 h2 p q).trans ?_
  show max c (multiReduction .maximumf [1] ⟨1, ![a]⟩ X acc h hφ hacc (ix1 p)) = _
  rw [rowMax_apply]

/-- Each row's sum laid out as a column and spread over the columns: at `(p, q)`, the sum of row `p`. -/
theorem spreadRowSum_apply {a b : ℕ} (E : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (h1 : (⟨1, ![a]⟩ : Shape).ShapeCasts ⟨2, ![a, 1]⟩)
    (h2 : (⟨2, ![a, 1]⟩ : Shape).Broadcasts ⟨2, ![a, b]⟩) (p : Fin a) (q : Fin b) :
    broadcastTo ⟨2, ![a, b]⟩ (shapeCast ⟨2, ![a, 1]⟩ (multiReduction .add [1] ⟨1, ![a]⟩ E acc h hφ hacc) h1) h2 (ix2 p q)
      = ∑ k : Fin b, E (ix2 p k) :=
  (column_spread_apply _ h1 h2 p q).trans (rowSum_apply E acc h hφ hacc p)

/-- A host reduction by `max` along the last axis of a rank-three array: at `(p, i)`, the fold of `max` from the
    initial value over that row. -/
theorem hostRowMax_apply {n a b : ℕ} {u : Shape} (X : FVec Ideal ⟨3, ![n, a, b]⟩ .f32) (init : u.Idx → Ideal .f32)
    (h' : (⟨3, ![n, a, b]⟩ : Shape).ReducesTo [2] (⟨2, ![n, a]⟩ : Shape))
    (h : (⟨3, ![n, a, b]⟩ : Shape).Reduces [2] (⟨2, ![n, a]⟩ : Shape)) (hu : 0 < u.numel) (p : Fin n) (i : Fin a) :
    Host.reduce FloatOps.maximumf X init h' hu (ix2 p i)
      = (Finset.univ : Finset (Fin b)).fold max (init (Shape.Idx.first hu)) (fun k => X (ix3 p i k)) := by
  refine (Host.reduce_eq_fold_single FloatOps.maximumf X init h' h hu (ix2 p i)).trans ?_
  have hf : (X ∘ h.lift (ix2 p i)) = fun k : Fin b => X (ix3 p i k) := funext fun k => congrArg X (lift_last3 h p i k)
  exact congrArg (fun f => Finset.fold max (init (Shape.Idx.first hu)) f (Finset.univ : Finset (Fin b))) hf

end Cert.LibRows

end
-- ==== Proof.LibTiles.lean ====
/-
  Tiles of matrices read at an index, over variable extents. A block of columns cut out of a matrix reads the matrix
  at the shifted column. A plain matrix product into a zero accumulator, at the extended reals, is at (p, c) the sum
  over the shared axis of the left factor's row p times the right factor's column c. A four-term sum written as a left
  nest, alone or on top of a first term, is the sum over `Fin 4`. The float words of 0 and 1 are 0 and 1.
-/
import Idealize.ShloMosaic.PureOps.Ideal.Laws
import Idealize.ShloMosaic.Lib.ValueIdx
import Idealize.ShloMosaic.Lib.Pipeline.Value

noncomputable section

namespace Cert.LibTiles

open Idealize.ShloMosaic Idealize.ShloMosaic.ValueIdx
open scoped BigOperators

variable {α : Type}

/-- Columns `o … o + C' − 1` of an `[R, C]` matrix, read at `(p, j)`: the matrix at `(p, o + j)`. -/
theorem sliceCols_apply {R C C' : ℕ} (o : ℕ) (v : (⟨2, ![R, C]⟩ : Shape).Idx → α)
    (h : (⟨2, ![R, C]⟩ : Shape).Slices ![0, o] ⟨2, ![R, C']⟩) (p : Fin R) (j : Fin C') (hj : o + j.val < C) :
    extractStridedSlice ⟨2, ![R, C']⟩ ![0, o] v h (ix2 p j) = v (ix2 p ⟨o + j.val, hj⟩) :=
  extractStridedSlice_apply ![0, o] v h (ix2 p j) (ix2 p ⟨o + j.val, hj⟩) (fun a => match a with
    | ⟨0, _⟩ => by show p.val = 0 + p.val; omega
    | ⟨1, _⟩ => rfl)

/-- A plain `[M, K] · [K, N]` product into the zero accumulator, read at `(p, c)` at the extended reals: the sum over
    the shared axis. The four hypotheses say which coordinates the product's dimension numbers pair up. -/
theorem matmul_plain_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![M, K]⟩ φ₁) (rhs : FVec Ideal ⟨2, ![K, N]⟩ φ₂) (p : Fin M) (c : Fin N) :
    matmul d prec lhs rhs (constant (F := Ideal) ⟨2, ![M, N]⟩ .f32 0x00000000#32) (ix2 p c)
      = ∑ k : Fin K, lhs (ix2 p k) * rhs (ix2 k c) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p c) ((contrEquiv1 d K hr hs).symm k) = ix2 p k := funext fun a => Fin.ext (by
    match a with
    | ⟨0, _⟩ => exact hl0 _ _
    | ⟨1, _⟩ => exact (hl1 _ _).trans hk)
  have er : d.rhsIdx (ix2 p c) ((contrEquiv1 d K hr hs).symm k) = ix2 k c := funext fun a => Fin.ext (by
    match a with
    | ⟨0, _⟩ => exact (hr0 _ _).trans hk
    | ⟨1, _⟩ => exact hr1 _ _)
  rw [el, er]

/-- Four terms added left to right are their sum over `Fin 4`. -/
theorem sum4_nest {M : Type*} [AddCommMonoid M] (f : Fin 4 → M) : ((f 0 + f 1) + f 2) + f 3 = ∑ k : Fin 4, f k :=
  (Fin.sum_univ_four f).symm

/-- Four terms added one after another on top of a first one are the first plus their sum over `Fin 4`. -/
theorem acc4_nest {M : Type*} [AddCommMonoid M] (a : M) (f : Fin 4 → M) :
    (((a + f 0) + f 1) + f 2) + f 3 = a + ∑ k : Fin 4, f k := by
  rw [Fin.sum_univ_four, add_assoc, add_assoc, add_assoc, add_assoc, add_assoc]

/-- The f32 word `0x3F800000` is the number one. -/
theorem one_f32 : Ideal.ofBits .f32 0x3F800000#32 = 1 := by
  simp [Ideal.ofBits, Ideal.ieee, -EReal.coe_mul]; norm_num

end Cert.LibTiles

end
-- ==== Proof.KernelTail.lean ====
/-
  The second half of the kernel body, one row at a time.

  Given, in row `q` of a block, the x and y coordinates of the 17 key points, the hip mid-point, the "both hips present" bit,
  the count of present key points, the mean of the present x coordinates and the present-masked y coordinates, the body
  forms the mean of the present y coordinates, chooses the centre, subtracts it, lays the 34 centred coordinates as all x
  then all y, and applies the two dense layers. With the first layer's weight rows in that same order (row `k` of the
  block is row `unzip k` of the weights), the sum over the 34 products is the sum in key-point order, because `unzip` is
  a bijection of the 34 positions and a finite sum of extended reals does not depend on the order of its terms.
-/
import proofs.«174692_j85134841741850_2_alg».proof.Proof.Gen.KernelIdeal.Skeleton
import proofs.«174692_j85134841741850_2_alg».proof.Proof.PoseSpec
import proofs.«174692_j85134841741850_2_alg».proof.Proof.LibDense
import proofs.«174692_j85134841741850_2_alg».proof.Proof.LibRows
import Idealize.ShloMosaic.Lib.ValueIdx
import Idealize.ShloMosaic.Lib.ValueLayout
import Idealize.ShloMosaic.Lib.Pipeline.Value
import Idealize.ShloMosaic.PureOps.Ideal.Laws

noncomputable section

namespace Cert.PoseKernel

open Idealize.ShloMosaic Idealize.ShloMosaic.ValueIdx Cert.KernelIdeal Cert.KernelIdeal.Gen Cert.PoseSpec
open scoped BigOperators

/-- `unzip` is a bijection of the 34 positions. -/
theorem unzip_bijective : Function.Bijective unzip := by decide

/-- A sum over the 34 positions in the all-x-then-all-y order is the sum in key-point order. -/
theorem sum_unzip (f : Fin 34 → EReal) : ∑ k : Fin 34, f (unzip k) = ∑ j : Fin 34, f j :=
  unzip_bijective.sum_comp f

/-- Position `k < 17` of the all-x-then-all-y order is the x of key point `k`. -/
theorem flat_unzip_lt (x : Pose) (k : Fin 34) (hk : k.val < 17) : flat x (unzip k) = centred x ⟨k.val, hk⟩ 0 := by
  unfold flat unzip
  rw [dif_pos hk]
  congr 1
  · exact Fin.ext (by show 2 * k.val / 2 = k.val; omega)
  · exact Fin.ext (by show 2 * k.val % 2 = 0; omega)

/-- Position `k ≥ 17` is the y of key point `k - 17`. -/
theorem flat_unzip_ge (x : Pose) (k : Fin 34) (hk : ¬ k.val < 17) :
    flat x (unzip k) = centred x ⟨k.val - 17, by have := k.isLt; omega⟩ 1 := by
  unfold flat unzip
  rw [dif_neg hk]
  congr 1
  · exact Fin.ext (by show (2 * (k.val - 17) + 1) / 2 = k.val - 17; omega)
  · exact Fin.ext (by show (2 * (k.val - 17) + 1) % 2 = 1; omega)

/-- The centre of one coordinate, as the body selects it: the hip mid-point under the hip bit, else the mean when the
    count is positive, else the hip mid-point. -/
theorem centre_entry (v26 : IVec S20000x1 1) (hipc cnt mn : FVec Ideal S20000x1 .f32) (q : Fin 20000) (x : Pose) (c : Fin 2)
    (h26 : v26 (ix2 q (0 : Fin 1)) = hipValid x) (hh : hipc (ix2 q (0 : Fin 1)) = hip x c)
    (hc : cnt (ix2 q (0 : Fin 1)) = count x) (hm : mn (ix2 q (0 : Fin 1)) = mean x c) :
    select v26 hipc (select (cmpf .ogt cnt (broadcast S20000x1 (Scalar.ofBits (F := Ideal) .f32 0x00000000#32))) mn hipc)
      (ix2 q (0 : Fin 1)) = centre x c := by
  rw [select_apply, select_apply, cmpf_apply, broadcast_apply, h26, hh, hc, hm]
  rfl

/-- The row sum of a 17-column block, kept as a column, read at row `q`. -/
theorem rowsum17 (v : FVec Ideal S20000x17 .f32) (q : Fin 20000) :
    shapeCast S20000x1 (multiReduction .add [1] S20000 v 0x00000000#32 reduces_S20000x17_S20000 (.inl rfl) rfl)
        shapeCasts_S20000_S20000x1 (ix2 q (0 : Fin 1)) = ∑ p : Fin 17, v (ix2 q p) :=
  (Cert.LibRows.shapeCast_a_a1_apply _ _ q 0).trans
    (Cert.LibRows.rowSum_apply v 0x00000000#32 reduces_S20000x17_S20000 (.inl rfl) rfl q)

/-- The mean of the present key points, coordinate `c`: the row sum of the masked coordinates over max(count, 1). -/
theorem mean_entry (v42 : FVec Ideal S20000x17 .f32) (cnt : FVec Ideal S20000x1 .f32) (q : Fin 20000) (x : Pose) (c : Fin 2)
    (h42 : ∀ p : Fin 17, v42 (ix2 q p) = x p c * present x p) (hc : cnt (ix2 q (0 : Fin 1)) = count x) :
    divf (shapeCast S20000x1 (multiReduction .add [1] S20000 v42 0x00000000#32 reduces_S20000x17_S20000 (.inl rfl) rfl)
        shapeCasts_S20000_S20000x1)
      (maximumf cnt (broadcast S20000x1 (Scalar.ofBits (F := Ideal) .f32 0x3F800000#32))) (ix2 q (0 : Fin 1)) = mean x c := by
  rw [divf_apply, maximumf_apply, broadcast_apply, hc]
  unfold mean
  exact congrArg₂ Ideal.div ((rowsum17 v42 q).trans (Finset.sum_congr rfl fun p _ => h42 p)) rfl

/-- The 34 centred coordinates of row `q`, all x then all y. -/
theorem cat_entry (v3 v5 : FVec Ideal S20000x17 .f32) (cx cy : FVec Ideal S20000x1 .f32) (q : Fin 20000) (k : Fin 34) (x : Pose)
    (h3 : ∀ p : Fin 17, v3 (ix2 q p) = x p 0) (h5 : ∀ p : Fin 17, v5 (ix2 q p) = x p 1)
    (hx : cx (ix2 q (0 : Fin 1)) = centre x 0) (hy : cy (ix2 q (0 : Fin 1)) = centre x 1) :
    concatenate S20000x34 1 [⟨S20000x17, subf v3 (broadcastTo S20000x17 cx broadcasts_S20000x1_S20000x17)⟩,
        ⟨S20000x17, subf v5 (broadcastTo S20000x17 cy broadcasts_S20000x1_S20000x17)⟩]
      concatenates_S20000x17_S20000x17_S20000x34_d1 (ix2 q k) = flat x (unzip k) := by
  rw [Cert.LibDense.concat_cols_apply (by norm_num : 17 + 17 = 34)]
  by_cases hk : k.val < 17
  · rw [dif_pos hk, flat_unzip_lt x k hk, subf_apply, Cert.LibDense.spread_col_apply, h3, hx]; rfl
  · rw [dif_neg hk, flat_unzip_ge x k hk, subf_apply, Cert.LibDense.spread_col_apply, h5, hy]; rfl

/-- The hidden layer of row `q`: the 34 coordinates against the weight block whose row `k` is row `unzip k` of the
    weights, plus the bias row, relu. -/
theorem hidden_entry (cat : FVec Ideal S20000x34 .f32) (v61 : FVec Ideal S34x128 .f32) (v64 : FVec Ideal S1x128 .f32)
    (q : Fin 20000) (n : Fin 128) (x : Pose) (W1 : Fin 34 → Fin 128 → EReal)
    (hcat : ∀ k : Fin 34, cat (ix2 q k) = flat x (unzip k)) (hW : ∀ (k : Fin 34) (n : Fin 128), v61 (ix2 k n) = W1 (unzip k) n) :
    maximumf (addf (matmul dot_S20000x34_S34x128_S20000x128_1_0_0_1_n_n none cat
          (shapeCast S34x128 v61 shapeCasts_S34x128_S34x128) (constant S20000x128 .f32 0x00000000#32))
        (broadcastTo S20000x128 (shapeCast S1x128 v64 shapeCasts_S1x128_S1x128) broadcasts_S1x128_S20000x128))
      (broadcast S20000x128 (Scalar.ofBits (F := Ideal) .f32 0x00000000#32)) (ix2 q n)
      = PoseSpec.hidden x W1 (fun n => v64 (ix2 (0 : Fin 1) n)) n := by
  rw [maximumf_apply, broadcast_apply]
  unfold PoseSpec.hidden
  refine congrArg₂ max ?_ rfl
  have hd : dot_S20000x34_S34x128_S20000x128_1_0_0_1_n_n
      = Cert.LibDense.plainOf dot_S20000x34_S34x128_S20000x128_1_0_0_1_n_n_wf := rfl
  rw [hd]
  refine (Cert.LibDense.dense_apply _ cat _ _ _ q n).trans ?_
  rw [shapeCast_self, shapeCast_self]
  refine congrArg₂ (· + ·) ?_ rfl
  simp only [hcat, hW]
  exact sum_unzip (fun j => flat x j * W1 j n)

/-- The output layer of row `q`. -/
theorem out_entry (hid : FVec Ideal S20000x128 .f32) (v70 : FVec Ideal S128x64 .f32) (v72 : FVec Ideal S1x64 .f32)
    (q : Fin 20000) (o : Fin 64) (x : Pose) (W1 : Fin 34 → Fin 128 → EReal) (b1 : Fin 128 → EReal)
    (hh : ∀ n : Fin 128, hid (ix2 q n) = PoseSpec.hidden x W1 b1 n) :
    addf (matmul dot_S20000x128_S128x64_S20000x64_1_0_0_1_n_n none hid v70 (constant S20000x64 .f32 0x00000000#32))
        (broadcastTo S20000x64 (shapeCast S1x64 v72 shapeCasts_S1x64_S1x64) broadcasts_S1x64_S20000x64) (ix2 q o)
      = embed x W1 b1 (fun n o => v70 (ix2 n o)) (fun o => v72 (ix2 (0 : Fin 1) o)) o := by
  have hd : dot_S20000x128_S128x64_S20000x64_1_0_0_1_n_n
      = Cert.LibDense.plainOf dot_S20000x128_S128x64_S20000x64_1_0_0_1_n_n_wf := rfl
  rw [hd]
  refine (Cert.LibDense.dense_apply _ hid v70 _ _ q o).trans ?_
  rw [shapeCast_self]
  unfold embed
  simp only [hh]

/-- THE SECOND HALF OF THE BODY at (q, o): the embedding of the row's pose. -/
theorem tail_entry
    (v3 v5 : FVec Ideal S20000x17 .f32) (v12 v15 : FVec Ideal S20000x1 .f32) (v26 : IVec S20000x1 1)
    (v35 v41 : FVec Ideal S20000x1 .f32) (v42 : FVec Ideal S20000x17 .f32)
    (v61 : Vec Ideal S34x128 .f32) (v64 : Vec Ideal S1x128 .f32) (v70 : Vec Ideal S128x64 .f32) (v72 : Vec Ideal S1x64 .f32)
    (q : Fin 20000) (o : Fin 64) (x : Pose) (W1 : Fin 34 → Fin 128 → EReal)
    (h3 : ∀ p : Fin 17, v3 (ix2 q p) = x p 0) (h5 : ∀ p : Fin 17, v5 (ix2 q p) = x p 1)
    (h12 : v12 (ix2 q (0 : Fin 1)) = hip x 0) (h15 : v15 (ix2 q (0 : Fin 1)) = hip x 1)
    (h26 : v26 (ix2 q (0 : Fin 1)) = hipValid x) (h35 : v35 (ix2 q (0 : Fin 1)) = count x)
    (h41 : v41 (ix2 q (0 : Fin 1)) = mean x 0) (h42 : ∀ p : Fin 17, v42 (ix2 q p) = x p 1 * present x p)
    (hW : ∀ (k : Fin 34) (n : Fin 128), v61 (ix2 k n) = W1 (unzip k) n) :
    k0_pay1 v3 v5 v12 v15 v26 v35 v41 v42 v61 v64 v70 v72 (ix2 q o)
      = embed x W1 (fun n => v64 (ix2 (0 : Fin 1) n)) (fun n o => v70 (ix2 n o)) (fun o => v72 (ix2 (0 : Fin 1) o)) o := by
  unfold k0_pay1
  exact out_entry _ v70 v72 q o x W1 _ (fun n => hidden_entry _ v61 v64 q n x W1
    (fun k => cat_entry v3 v5 _ _ q k x h3 h5
      (centre_entry v26 v12 v35 v41 q x 0 h26 h12 h35 h41)
      (centre_entry v26 v15 v35 _ q x 1 h26 h15 h35 (mean_entry v42 v35 q x 1 h42 h35))) hW)

end Cert.PoseKernel

end
-- ==== Proof.KernelHead.lean ====
/-
  The first half of the kernel body, one row at a time, and the whole body.

  A row of a block holds the 17 key points flat: coordinate `c` of key point `p` is column `3p + c`. The body multiplies
  the row by a 51 × 17 matrix whose column `p` has a single one, at row `3p` (for x) or `3p + 1` (for y): the product is
  that column of the row, because every other term of the sum is a product with zero and the remaining one a product with
  one. From these x and y it takes the two hips (columns 11 and 12), their mid-point, the presence bits |x| + |y| > 0, the
  count of present key points and the mean of the present x coordinates.
-/
import proofs.«174692_j85134841741850_2_alg».proof.Proof.Gen.KernelIdeal.Skeleton
import proofs.«174692_j85134841741850_2_alg».proof.Proof.PoseSpec
import proofs.«174692_j85134841741850_2_alg».proof.Proof.LibDense
import proofs.«174692_j85134841741850_2_alg».proof.Proof.LibRows
import proofs.«174692_j85134841741850_2_alg».proof.Proof.LibTiles
import proofs.«174692_j85134841741850_2_alg».proof.Proof.KernelTail
import Idealize.ShloMosaic.Lib.ValueIdx
import Idealize.ShloMosaic.Lib.ValueLayout
import Idealize.ShloMosaic.Lib.Pipeline.Value
import Idealize.ShloMosaic.PureOps.Ideal.Laws

noncomputable section

namespace Cert.PoseKernel

open Idealize.ShloMosaic Idealize.ShloMosaic.ValueIdx Cert.KernelIdeal Cert.KernelIdeal.Gen Cert.PoseSpec
open scoped BigOperators

/-- The pose in row `q` of a block of flat key-point rows: coordinate `c` of key point `p` is column `3p + c`. -/
def rowPose (x0 : Vec Ideal S20000x51 .f32) (q : Fin 20000) : Pose :=
  fun p c => x0 (ix2 q ⟨3 * p.val + c.val, by have := p.isLt; have := c.isLt; omega⟩)

/-- A row times a 0/1 matrix whose column `p` has its single one at row `f p` is the row's entry `f p`. -/
theorem pick_entry (x0 : Vec Ideal S20000x51 .f32) (s : FVec Ideal S51x17 .f32) (f : Fin 17 → Nat) (hf : ∀ p, f p < 51)
    (hs : ∀ (k : Fin 51) (p : Fin 17), s (ix2 k p) = if k.val = f p then (1 : EReal) else 0) (q : Fin 20000) (p : Fin 17) :
    matmul dot_S20000x51_S51x17_S20000x17_1_0_0_1_n_n none (k0_pay2 x0) s (constant S20000x17 .f32 0x00000000#32) (ix2 q p)
      = x0 (ix2 q ⟨f p, hf p⟩) := by
  have hd : dot_S20000x51_S51x17_S20000x17_1_0_0_1_n_n
      = Cert.LibDense.plainOf dot_S20000x51_S51x17_S20000x17_1_0_0_1_n_n_wf := rfl
  rw [hd]
  refine (Cert.LibDense.matmul_zero_plain _ none (k0_pay2 x0) s q p).trans ?_
  rw [Finset.sum_eq_single (⟨f p, hf p⟩ : Fin 51)]
  · rw [hs, if_pos rfl, mul_one]
    unfold k0_pay2
    rw [shapeCast_self]
  · intro k _ hk
    rw [hs, if_neg (fun h => hk (Fin.ext h)), mul_zero]
  · intro h
    exact absurd (Finset.mem_univ _) h

section Row

variable (x0 : Vec Ideal S20000x51 .f32) (x1 x2 : Vec Ideal S51x17 .f32)
  (hX : ∀ (k : Fin 51) (p : Fin 17), x1 (ix2 k p) = if k.val = 3 * p.val then (1 : EReal) else 0)
  (hY : ∀ (k : Fin 51) (p : Fin 17), x2 (ix2 k p) = if k.val = 3 * p.val + 1 then (1 : EReal) else 0)
  (q : Fin 20000)

include hX in
/-- The x coordinates of row `q`. -/
theorem xs_entry (p : Fin 17) : k0_pay3 x0 x1 (ix2 q p) = rowPose x0 q p 0 :=
  pick_entry x0 x1 (fun p => 3 * p.val) (fun p => by have := p.isLt; omega) hX q p

include hY in
/-- The y coordinates of row `q`. -/
theorem ys_entry (p : Fin 17) : k0_pay4 x0 x2 (ix2 q p) = rowPose x0 q p 1 :=
  pick_entry x0 x2 (fun p => 3 * p.val + 1) (fun p => by have := p.isLt; omega) hY q p

include hX in
theorem lhx_entry : k0_pay5 x0 x1 (ix2 q (0 : Fin 1)) = rowPose x0 q 11 0 := by
  unfold k0_pay5
  exact (Cert.LibTiles.sliceCols_apply 11 _ _ q (0 : Fin 1) (by decide)).trans (xs_entry x0 x1 hX q 11)

include hY in
theorem lhy_entry : k0_pay6 x0 x2 (ix2 q (0 : Fin 1)) = rowPose x0 q 11 1 := by
  unfold k0_pay6
  exact (Cert.LibTiles.sliceCols_apply 11 _ _ q (0 : Fin 1) (by decide)).trans (ys_entry x0 x2 hY q 11)

include hX in
theorem rhx_entry : k0_pay7 x0 x1 (ix2 q (0 : Fin 1)) = rowPose x0 q 12 0 := by
  unfold k0_pay7
  exact (Cert.LibTiles.sliceCols_apply 12 _ _ q (0 : Fin 1) (by decide)).trans (xs_entry x0 x1 hX q 12)

include hY in
theorem rhy_entry : k0_pay8 x0 x2 (ix2 q (0 : Fin 1)) = rowPose x0 q 12 1 := by
  unfold k0_pay8
  exact (Cert.LibTiles.sliceCols_apply 12 _ _ q (0 : Fin 1) (by decide)).trans (ys_entry x0 x2 hY q 12)

include hX in
/-- The hip mid-point, x. -/
theorem hipx_entry : k0_pay9 x0 x1 (ix2 q (0 : Fin 1)) = hip (rowPose x0 q) 0 := by
  unfold k0_pay9
  rw [mulf_apply, addf_apply, broadcast_apply, lhx_entry x0 x1 hX q, rhx_entry x0 x1 hX q]
  rfl

include hY in
/-- The hip mid-point, y. -/
theorem hipy_entry : k0_pay10 x0 x2 (ix2 q (0 : Fin 1)) = hip (rowPose x0 q) 1 := by
  unfold k0_pay10
  rw [mulf_apply, addf_apply, broadcast_apply, lhy_entry x0 x2 hY q, rhy_entry x0 x2 hY q]
  rfl

include hX hY in
/-- Both hips present. -/
theorem hipValid_entry : k0_pay11 x0 x1 x2 (ix2 q (0 : Fin 1)) = hipValid (rowPose x0 q) := by
  unfold k0_pay11
  show IntOp.andi
      (Ideal.cmp .ogt (max (k0_pay5 x0 x1 (ix2 q (0 : Fin 1))) (-(k0_pay5 x0 x1 (ix2 q (0 : Fin 1))))
        + max (k0_pay6 x0 x2 (ix2 q (0 : Fin 1))) (-(k0_pay6 x0 x2 (ix2 q (0 : Fin 1))))) zeroW)
      (Ideal.cmp .ogt (max (k0_pay7 x0 x1 (ix2 q (0 : Fin 1))) (-(k0_pay7 x0 x1 (ix2 q (0 : Fin 1))))
        + max (k0_pay8 x0 x2 (ix2 q (0 : Fin 1))) (-(k0_pay8 x0 x2 (ix2 q (0 : Fin 1))))) zeroW) = _
  rw [lhx_entry x0 x1 hX q, lhy_entry x0 x2 hY q, rhx_entry x0 x1 hX q, rhy_entry x0 x2 hY q]
  rfl

/-- A one-bit word widened to 32 bits and read signed is the bit read unsigned. -/
theorem sitofp_bit (b : BitVec 1) : (((b.setWidth 32).toInt : ℝ) : EReal) = ((b.toNat : ℝ) : EReal) := by
  have h : ∀ b : BitVec 1, (b.setWidth 32).toInt = (b.toNat : Int) := by decide
  rw [h b, Int.cast_natCast]

include hX hY in
/-- The presence of key point `p`, as 0 or 1. -/
theorem present_entry (p : Fin 17) : k0_pay12 x0 x1 x2 (ix2 q p) = present (rowPose x0 q) p := by
  unfold k0_pay12
  show (((((Ideal.cmp .ogt (max (k0_pay3 x0 x1 (ix2 q p)) (-(k0_pay3 x0 x1 (ix2 q p)))
      + max (k0_pay4 x0 x2 (ix2 q p)) (-(k0_pay4 x0 x2 (ix2 q p)))) zeroW).setWidth 32).toInt : ℝ) : EReal)) = _
  rw [xs_entry x0 x1 hX q p, ys_entry x0 x2 hY q p]
  exact sitofp_bit _

include hX hY in
/-- The count of present key points. -/
theorem count_entry : k0_pay13 x0 x1 x2 (ix2 q (0 : Fin 1)) = count (rowPose x0 q) := by
  unfold k0_pay13
  exact (rowsum17 _ q).trans (Finset.sum_congr rfl fun p _ => present_entry x0 x1 x2 hX hY q p)

include hX hY in
/-- The mean of the present x coordinates. -/
theorem meanx_entry : k0_pay14 x0 x1 x2 (ix2 q (0 : Fin 1)) = mean (rowPose x0 q) 0 := by
  unfold k0_pay14
  exact mean_entry (mulf (k0_pay3 x0 x1) (k0_pay12 x0 x1 x2)) (k0_pay13 x0 x1 x2) q (rowPose x0 q) 0
    (fun p => by rw [mulf_apply, xs_entry x0 x1 hX q p, present_entry x0 x1 x2 hX hY q p])
    (count_entry x0 x1 x2 hX hY q)

include hX hY in
/-- The present-masked y coordinates. -/
theorem maskedy_entry (p : Fin 17) :
    k0_pay15 x0 x1 x2 (ix2 q p) = rowPose x0 q p 1 * present (rowPose x0 q) p := by
  unfold k0_pay15
  rw [mulf_apply, ys_entry x0 x2 hY q p, present_entry x0 x1 x2 hX hY q p]

end Row

/-- THE WHOLE BODY at (q, o): from a block of flat key-point rows, the two 0/1 column pickers, a weight block whose row
    `k` is row `unzip k` of the first layer's weights, and the other parameters, the stored value is the embedding of the
    pose in row `q`. -/
theorem body_entry (x0 : Vec Ideal S20000x51 .f32) (x1 x2 : Vec Ideal S51x17 .f32) (x3 : Vec Ideal S34x128 .f32)
    (x4 : Vec Ideal S1x128 .f32) (x5 : Vec Ideal S128x64 .f32) (x6 : Vec Ideal S1x64 .f32)
    (W1 : Fin 34 → Fin 128 → EReal)
    (hX : ∀ (k : Fin 51) (p : Fin 17), x1 (ix2 k p) = if k.val = 3 * p.val then (1 : EReal) else 0)
    (hY : ∀ (k : Fin 51) (p : Fin 17), x2 (ix2 k p) = if k.val = 3 * p.val + 1 then (1 : EReal) else 0)
    (hW : ∀ (k : Fin 34) (n : Fin 128), x3 (ix2 k n) = W1 (unzip k) n) (q : Fin 20000) (o : Fin 64) :
    k0_pay1 (k0_pay3 x0 x1) (k0_pay4 x0 x2) (k0_pay9 x0 x1) (k0_pay10 x0 x2) (k0_pay11 x0 x1 x2) (k0_pay13 x0 x1 x2)
        (k0_pay14 x0 x1 x2) (k0_pay15 x0 x1 x2) x3 x4 x5 x6 (ix2 q o)
      = embed (rowPose x0 q) W1 (fun n => x4 (ix2 (0 : Fin 1) n)) (fun n o => x5 (ix2 n o))
          (fun o => x6 (ix2 (0 : Fin 1) o)) o :=
  tail_entry _ _ _ _ _ _ _ _ x3 x4 x5 x6 q o (rowPose x0 q) W1
    (xs_entry x0 x1 hX q) (ys_entry x0 x2 hY q) (hipx_entry x0 x1 hX q) (hipy_entry x0 x2 hY q)
    (hipValid_entry x0 x1 x2 hX hY q) (count_entry x0 x1 x2 hX hY q) (meanx_entry x0 x1 x2 hX hY q)
    (maskedy_entry x0 x1 x2 hX hY q) hW

end Cert.PoseKernel

end
-- ==== Proof.KernelValue.lean ====
/-
  From the blocks to the whole result array.

  Grid point `t` (of 50) reads rows 20000·t … 20000·t + 19999 of the flat key-point array and every other operand whole,
  and writes the same rows of the result. Row `q` of what it writes is the embedding of the pose in row `q` of its block
  (the body, one row at a time), which is row 20000·t + q of the key-point array; so the block it writes is that block
  of the specification's array. The 50 blocks cover the result's 1000000 rows (row `r` lies in block `r / 20000`), so
  after the run the result array is the specification's array.
-/
import proofs.«174692_j85134841741850_2_alg».proof.Proof.Gen.KernelIdeal.Value
import proofs.«174692_j85134841741850_2_alg».proof.Proof.PoseSpec
import proofs.«174692_j85134841741850_2_alg».proof.Proof.KernelHead
import Idealize.ShloMosaic.Lib.Pipeline.Value
import Idealize.ShloMosaic.Lib.ValueIdx

noncomputable section

namespace Cert.PoseKernel

open Cert.KernelIdeal Cert.KernelIdeal.Gen Idealize.ShloMosaic Idealize.ShloMosaic.TcCoe Idealize.SL.Sem
open Idealize.ShloMosaic.ValueIdx Cert.PoseSpec
open Idealize.ShloMosaic.Pipeline (Dat)

variable (m : (ℓ : Loc nD τ sig) → Buf (Elt Ideal) ℓ) (ρ : Dev nD → PrngReg)

/-- The specification's array at the launch contents of the five arguments. -/
def Gm (c : Dev nD) : S1000000x64.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4))

theorem hz : (![0, 0] : Fin 2 → Nat) = fun _ => 0 := funext fun a => by fin_cases a <;> rfl

/-- The windows' block indices over the grid: the key-point rows and the result rows move with the point, every other
    operand is one whole block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem lt_N (t : Fin cfg0.N) : t.val < 50 := by
  have h : t.val < cfg0.N := t.isLt
  have e : cfg0.N = 50 := N_0
  omega

/-- Row `q` of point `t`'s block is row 20000·t + q of the array. -/
def rowOf (t : Fin cfg0.N) (q : Fin 20000) : Fin 1000000 :=
  ⟨t.val * 20000 + q.val, by have := lt_N t; have := q.isLt; omega⟩

/-! ## Each window's block, read at an index -/

theorem blk0_read (c : Dev nD) (t : Fin cfg0.N) (q : Fin 20000) (k : Fin 51) :
    iblk m c 0 t (ix2 q k) = (V m c main_v0 : S1000000x51.Idx → EReal) (ix2 (rowOf t q) k) := by
  show (V m c main_v0 : S1000000x51.Idx → EReal) (((cfg0.win 0).blk t).view.emb (ix2 q k)) = _
  refine congrArg _ ?_
  obtain ⟨e0, e1, -⟩ := idx_facts t
  funext a; apply Fin.ext
  match a with
  | ⟨0, _⟩ => show win0_0.index t (0 : Fin 2) * 20000 + 1 * q.val = t.val * 20000 + q.val; omega
  | ⟨1, _⟩ => show win0_0.index t (1 : Fin 2) * 51 + 1 * k.val = k.val; omega

theorem blk1_read (c : Dev nD) (t : Fin cfg0.N) (k : Fin 51) (p : Fin 17) :
    iblk m c 1 t (ix2 k p) = (V m c main_cst : S51x17.Idx → EReal) (ix2 k p) := by
  show (V m c main_cst : S51x17.Idx → EReal) (((cfg0.win 1).blk t).view.emb (ix2 k p)) = _
  refine congrArg _ ?_
  obtain ⟨-, -, e0, e1, -⟩ := idx_facts t
  funext a; apply Fin.ext
  match a with
  | ⟨0, _⟩ => show win0_1.index t (0 : Fin 2) * 51 + 1 * k.val = k.val; omega
  | ⟨1, _⟩ => show win0_1.index t (1 : Fin 2) * 17 + 1 * p.val = p.val; omega

theorem blk2_read (c : Dev nD) (t : Fin cfg0.N) (k : Fin 51) (p : Fin 17) :
    iblk m c 2 t (ix2 k p) = (V m c main_cst_0 : S51x17.Idx → EReal) (ix2 k p) := by
  show (V m c main_cst_0 : S51x17.Idx → EReal) (((cfg0.win 2).blk t).view.emb (ix2 k p)) = _
  refine congrArg _ ?_
  obtain ⟨-, -, -, -, e0, e1, -⟩ := idx_facts t
  funext a; apply Fin.ext
  match a with
  | ⟨0, _⟩ => show win0_2.index t (0 : Fin 2) * 51 + 1 * k.val = k.val; omega
  | ⟨1, _⟩ => show win0_2.index t (1 : Fin 2) * 17 + 1 * p.val = p.val; omega

theorem blk3_read (c : Dev nD) (t : Fin cfg0.N) (j : Fin 34) (n : Fin 128) :
    iblk m c 3 t (ix2 j n) = (V m c main_v1 : S34x128.Idx → EReal) (ix2 j n) := by
  show (V m c main_v1 : S34x128.Idx → EReal) (((cfg0.win 3).blk t).view.emb (ix2 j n)) = _
  refine congrArg _ ?_
  obtain ⟨-, -, -, -, -, -, e0, e1, -⟩ := idx_facts t
  funext a; apply Fin.ext
  match a with
  | ⟨0, _⟩ => show win0_3.index t (0 : Fin 2) * 34 + 1 * j.val = j.val; omega
  | ⟨1, _⟩ => show win0_3.index t (1 : Fin 2) * 128 + 1 * n.val = n.val; omega

theorem blk4_read (c : Dev nD) (t : Fin cfg0.N) (u : Fin 1) (n : Fin 128) :
    iblk m c 4 t (ix2 u n) = (V m c main_v2 : S1x128.Idx → EReal) (ix2 u n) := by
  show (V m c main_v2 : S1x128.Idx → EReal) (((cfg0.win 4).blk t).view.emb (ix2 u n)) = _
  refine congrArg _ ?_
  obtain ⟨-, -, -, -, -, -, -, -, e0, e1, -⟩ := idx_facts t
  funext a; apply Fin.ext
  match a with
  | ⟨0, _⟩ => show win0_4.index t (0 : Fin 2) * 1 + 1 * u.val = u.val; omega
  | ⟨1, _⟩ => show win0_4.index t (1 : Fin 2) * 128 + 1 * n.val = n.val; omega

theorem blk5_read (c : Dev nD) (t : Fin cfg0.N) (n : Fin 128) (o : Fin 64) :
    iblk m c 5 t (ix2 n o) = (V m c main_arg3 : S128x64.Idx → EReal) (ix2 n o) := by
  show (V m c main_arg3 : S128x64.Idx → EReal) (((cfg0.win 5).blk t).view.emb (ix2 n o)) = _
  refine congrArg _ ?_
  obtain ⟨-, -, -, -, -, -, -, -, -, -, e0, e1, -⟩ := idx_facts t
  funext a; apply Fin.ext
  match a with
  | ⟨0, _⟩ => show win0_5.index t (0 : Fin 2) * 128 + 1 * n.val = n.val; omega
  | ⟨1, _⟩ => show win0_5.index t (1 : Fin 2) * 64 + 1 * o.val = o.val; omega

theorem blk6_read (c : Dev nD) (t : Fin cfg0.N) (u : Fin 1) (o : Fin 64) :
    iblk m c 6 t (ix2 u o) = (V m c main_v3 : S1x64.Idx → EReal) (ix2 u o) := by
  show (V m c main_v3 : S1x64.Idx → EReal) (((cfg0.win 6).blk t).view.emb (ix2 u o)) = _
  refine congrArg _ ?_
  obtain ⟨-, -, -, -, -, -, -, -, -, -, -, -, e0, e1, -⟩ := idx_facts t
  funext a; apply Fin.ext
  match a with
  | ⟨0, _⟩ => show win0_6.index t (0 : Fin 2) * 1 + 1 * u.val = u.val; omega
  | ⟨1, _⟩ => show win0_6.index t (1 : Fin 2) * 64 + 1 * o.val = o.val; omega

/-- Where entry (q, o) of point `t`'s result block lies in the result array. -/
theorem emb7 (t : Fin cfg0.N) (q : Fin 20000) (o : Fin 64) :
    ((cfg0.win 7).blk t).view.emb (ix2 q o) = (ix2 (rowOf t q) o : S1000000x64.Idx) := by
  obtain ⟨-, -, -, -, -, -, -, -, -, -, -, -, -, -, e0, e1⟩ := idx_facts t
  funext a; apply Fin.ext
  match a with
  | ⟨0, _⟩ => show win0_7.index t (0 : Fin 2) * 20000 + 1 * q.val = t.val * 20000 + q.val; omega
  | ⟨1, _⟩ => show win0_7.index t (1 : Fin 2) * 64 + 1 * o.val = o.val; omega

/-! ## What a point writes back -/

section Windows

/- What the region finds in the arrays the host wrote before it, read at an index: the flat key points, the two 0/1
   column pickers, the first layer's weights with their rows in the all-x-then-all-y order, the two bias rows. -/
variable (c : Dev nD)
  (hkp : ∀ (r : Fin 1000000) (k : Fin 51), (V m c main_v0 : S1000000x51.Idx → EReal) (ix2 r k)
    = (m ((c : Thread nD τ).loc main_arg0) : S1000000x17x3.Idx → EReal)
        (ix3 r ⟨k.val / 3, by have := k.isLt; omega⟩ ⟨k.val % 3, by omega⟩))
  (hX : ∀ (k : Fin 51) (p : Fin 17), (V m c main_cst : S51x17.Idx → EReal) (ix2 k p) = if k.val = 3 * p.val then (1 : EReal) else 0)
  (hY : ∀ (k : Fin 51) (p : Fin 17), (V m c main_cst_0 : S51x17.Idx → EReal) (ix2 k p) = if k.val = 3 * p.val + 1 then (1 : EReal) else 0)
  (hW : ∀ (j : Fin 34) (n : Fin 128), (V m c main_v1 : S34x128.Idx → EReal) (ix2 j n)
    = (m ((c : Thread nD τ).loc main_arg1) : S34x128.Idx → EReal) (ix2 (unzip j) n))
  (hb1 : ∀ (u : Fin 1) (n : Fin 128), (V m c main_v2 : S1x128.Idx → EReal) (ix2 u n)
    = (m ((c : Thread nD τ).loc main_arg2) : S128.Idx → EReal) (ix1 n))
  (hb2 : ∀ (u : Fin 1) (o : Fin 64), (V m c main_v3 : S1x64.Idx → EReal) (ix2 u o)
    = (m ((c : Thread nD τ).loc main_arg4) : S64.Idx → EReal) (ix1 o))

include hkp in
/-- The pose in row `q` of point `t`'s key-point block is pose 20000·t + q of the key-point array. -/
theorem rowPose_blk (t : Fin cfg0.N) (q : Fin 20000) :
    rowPose (iblk m c 0 t) q = poseOf (m ((c : Thread nD τ).loc main_arg0)) (rowOf t q) := by
  funext p d
  show iblk m c 0 t (ix2 q ⟨3 * p.val + d.val, _⟩) = _
  rw [blk0_read m c t q, hkp]
  have ea : (⟨(3 * p.val + d.val) / 3, by have := p.isLt; have := d.isLt; omega⟩ : Fin 17) = p :=
    Fin.ext (by show (3 * p.val + d.val) / 3 = p.val; have := d.isLt; omega)
  have eb : (⟨(3 * p.val + d.val) % 3, by omega⟩ : Fin 3) = ⟨d.val, by have := d.isLt; omega⟩ :=
    Fin.ext (by show (3 * p.val + d.val) % 3 = d.val; have := d.isLt; omega)
  exact congrArg₂ (fun a b => (m ((c : Thread nD τ).loc main_arg0) : S1000000x17x3.Idx → EReal) (ix3 (rowOf t q) a b)) ea eb

include hkp hX hY hW hb1 hb2 in
/-- WHAT POINT `t` WRITES BACK is block `t` of the specification's array. -/
theorem flushed_eq (t : Fin cfg0.N) :
    (dats m 0 c).flushed 7 t = ((cfg0.win 7).blk t).view.read (Elt Ideal) (Gm m c) := by
  show (cfg0.win 7).cut (grid0.coords t) ((dats m 0 c).after 7 t) = _
  rw [after0_7]
  unfold out0_7
  rw [View.canon_unit_zero hz]
  simp only [View.ld_unit_zero (S := S20000x51) hz, View.ld_unit_zero (S := S51x17) hz, View.ld_unit_zero (S := S34x128) hz,
    View.ld_unit_zero (S := S1x128) hz, View.ld_unit_zero (S := S128x64) hz, View.ld_unit_zero (S := S1x64) hz]
  funext j
  obtain ⟨q, o, rfl⟩ : ∃ (q : Fin 20000) (o : Fin 64), j = ix2 q o := ⟨j 0, j 1, eq_ix2 j⟩
  show k0_pay1 (k0_pay3 (iblk m c 0 t) (iblk m c 1 t)) (k0_pay4 (iblk m c 0 t) (iblk m c 2 t))
      (k0_pay9 (iblk m c 0 t) (iblk m c 1 t)) (k0_pay10 (iblk m c 0 t) (iblk m c 2 t))
      (k0_pay11 (iblk m c 0 t) (iblk m c 1 t) (iblk m c 2 t)) (k0_pay13 (iblk m c 0 t) (iblk m c 1 t) (iblk m c 2 t))
      (k0_pay14 (iblk m c 0 t) (iblk m c 1 t) (iblk m c 2 t)) (k0_pay15 (iblk m c 0 t) (iblk m c 1 t) (iblk m c 2 t))
      (iblk m c 3 t) (iblk m c 4 t) (iblk m c 5 t) (iblk m c 6 t) (ix2 q o)
    = Gm m c (((cfg0.win 7).blk t).view.emb (ix2 q o))
  refine (body_entry (iblk m c 0 t) (iblk m c 1 t) (iblk m c 2 t) (iblk m c 3 t) (iblk m c 4 t) (iblk m c 5 t) (iblk m c 6 t)
    (fun j n => (m ((c : Thread nD τ).loc main_arg1) : S34x128.Idx → EReal) (ix2 j n))
    (fun k p => (blk1_read m c t k p).trans (hX k p)) (fun k p => (blk2_read m c t k p).trans (hY k p))
    (fun k n => (blk3_read m c t k n).trans (hW k n)) q o).trans ?_
  rw [emb7 t q o]
  show _ = entry (m ((c : Thread nD τ).loc main_arg0)) (m ((c : Thread nD τ).loc main_arg1)) (m ((c : Thread nD τ).loc main_arg2))
    (m ((c : Thread nD τ).loc main_arg3)) (m ((c : Thread nD τ).loc main_arg4)) (rowOf t q) o
  unfold entry
  have h4 : (fun n : Fin 128 => iblk m c 4 t (ix2 (0 : Fin 1) n))
      = fun n => (m ((c : Thread nD τ).loc main_arg2) : S128.Idx → EReal) (ix1 n) :=
    funext fun n => (blk4_read m c t 0 n).trans (hb1 0 n)
  have h5 : (fun (n : Fin 128) (o : Fin 64) => iblk m c 5 t (ix2 n o))
      = fun n o => (m ((c : Thread nD τ).loc main_arg3) : S128x64.Idx → EReal) (ix2 n o) :=
    funext fun n => funext fun o => (blk5_read m c t n o).trans (congrFun (V_main_arg3 m c) (ix2 n o))
  have h6 : (fun o : Fin 64 => iblk m c 6 t (ix2 (0 : Fin 1) o))
      = fun o => (m ((c : Thread nD τ).loc main_arg4) : S64.Idx → EReal) (ix1 o) :=
    funext fun o => (blk6_read m c t 0 o).trans (hb2 0 o)
  rw [rowPose_blk m c hkp t q, h4, h5, h6]

/-- An index of the result array is in point `t`'s block iff each of its two coordinates lies in the block's range on
    that axis (on the row axis: one of the point's 20000 rows; on the column axis: always). -/
theorem mem_blk7 (t : Fin cfg0.N) (i : S1000000x64.Idx) :
    i ∈ ((cfg0.win 7).blk t).view.set ↔ ∀ a : Fin 2, win0_7.index t a * S20000x64.size a ≤ (i a).val
      ∧ (i a).val < win0_7.index t a * S20000x64.size a + S20000x64.size a := by
  show i ∈ ((View.whole main_v4).slice (win0_7.rect t)).set ↔ _
  rw [View.set_slice_whole, Rect.mem_set_unit]
  exact Iff.rfl

/-- Every index of the result array is in some point's block: row `r` in block `r / 20000`. -/
theorem cover7 (i : S1000000x64.Idx) :
    ∃ t : Fin cfg0.N, (cfg0.win 7).flush t = true ∧ i ∈ ((cfg0.win 7).blk t).view.set := by
  have hi0 : (i 0).val < 1000000 := (i 0).isLt
  have hi1 : (i 1).val < 64 := (i 1).isLt
  have hN : (i 0).val / 20000 < cfg0.N := by rw [show cfg0.N = 50 from N_0]; omega
  refine ⟨⟨(i 0).val / 20000, hN⟩, flush0_7 _, ?_⟩
  rw [mem_blk7]
  obtain ⟨-, -, -, -, -, -, -, -, -, -, -, -, -, -, e0, e1⟩ := idx_facts ⟨(i 0).val / 20000, hN⟩
  intro a
  match a with
  | ⟨0, _⟩ =>
    show win0_7.index ⟨(i 0).val / 20000, hN⟩ (0 : Fin 2) * 20000 ≤ (i 0).val
      ∧ (i 0).val < win0_7.index ⟨(i 0).val / 20000, hN⟩ (0 : Fin 2) * 20000 + 20000
    rw [e0]; show (i 0).val / 20000 * 20000 ≤ (i 0).val ∧ (i 0).val < (i 0).val / 20000 * 20000 + 20000; omega
  | ⟨1, _⟩ =>
    show win0_7.index ⟨(i 0).val / 20000, hN⟩ (1 : Fin 2) * 64 ≤ (i 1).val
      ∧ (i 1).val < win0_7.index ⟨(i 0).val / 20000, hN⟩ (1 : Fin 2) * 64 + 64
    rw [e1]; omega

include hkp hX hY hW hb1 hb2 in
/-- THE RESULT ARRAY after the run is the specification's array. -/
theorem final7 : (dats m 0 c).arrAt 7 cfg0.N = Gm m c :=
  (dats m 0 c).arrAt_eq_of_cover 7 (Gm m c) (fun t _ => flushed_eq m c hkp hX hY hW hb1 hb2 t) cover7

end Windows

end Cert.PoseKernel

end
-- ==== Proof.LibScatter.lean ====
/-
  Row gathers and row scatters read at an index.

  `x[idx]` of a matrix `x : [N, C]` at a column of row numbers `idx : [E, 1]` is a `stablehlo.gather` whose result
  row `e` is row `idx[e, 0]` of `x`, the row number read signed and clamped into `[0, N - 1]`.  A segment sum
  `segment_sum(upd, idx, N)` of a matrix `upd : [E, C]` (or of a vector `upd : [E]`) is a `stablehlo.scatter` with an
  `add` body: on the extended reals element `(n, c)` of the result is the operand's element plus the sum of
  `upd[e, c]` over the rows `e` whose row number `idx[e, 0]`, read signed and NOT clamped, is `n`; a row number
  outside `[0, N)` lands nowhere.  These lemmas read the three operations at an index, for every extent.
-/
import Idealize.ShloMosaic.PureOps.Ideal
import Idealize.ShloMosaic.PureOps.Contract
import Idealize.ShloMosaic.Lib.ValueIdx

noncomputable section

open scoped BigOperators

namespace Idealize.ShloMosaic.RowOps

open Idealize.ShloMosaic Idealize.ShloMosaic.ValueIdx

/-! ## The dimension numbers -/

/-- A gather of whole rows: operand `[N, C]`, row numbers `[E, 1]`, result `[E, C]`. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- A scatter of whole rows: operand `[N, C]`, row numbers `[E, 1]`, updates `[E, C]`. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- A scatter of single elements: operand `[N]`, element numbers `[E, 1]`, updates `[E]`. -/
abbrev vecScatter (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-! ## The row gather -/

/-- The row a gather reads for result row `e`: the row number read signed, clamped into `[0, N - 1]`. -/
def clampRow {N E w : Nat} (hN : 0 < N) (idx : IVec ⟨2, ![E, 1]⟩ w) (e : Fin E) : Fin N :=
  ⟨min (idx (ix2 e 0)).toInt.toNat (N - 1), by omega⟩

/-- Axis 1 of a matrix is not axis 0. -/
private theorem fin2_one_ne_zero : ¬ (1 : Fin 2) = 0 := by decide

section RowGather
variable {N E C w : Nat} (wf : GatherDims.WF ⟨2, ![N, C]⟩ ⟨2, ![E, 1]⟩ ⟨2, ![E, C]⟩ [1] [0] [] [0] [] 1 ![1, C])

/-- On the row axis the gather reads the clamped row number. -/
theorem rowGather_row (hN : 0 < N) (idx : IVec ⟨2, ![E, 1]⟩ w) (e : Fin E) (c : Fin C) :
    (rowGather N E C wf).start (ix2 e c) idx 0 + (rowGather N E C wf).batchCoord (ix2 e c) 0
      + (rowGather N E C wf).offCoord (ix2 e c) 0 = (clampRow hN idx e).val := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N E C wf).startIndexMap from List.mem_singleton.mpr rfl)]
  have hsi : (rowGather N E C wf).siIdx (ix2 e c) ⟨List.idxOf (0 : Fin 2) (rowGather N E C wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- On the column axis the gather reads the result's own column. -/
theorem rowGather_col (idx : IVec ⟨2, ![E, 1]⟩ w) (e : Fin E) (c : Fin C) :
    (rowGather N E C wf).start (ix2 e c) idx 1 + (rowGather N E C wf).batchCoord (ix2 e c) 1
      + (rowGather N E C wf).offCoord (ix2 e c) 1 = c.val := by
  rw [GatherDims.batchCoord_eq_zero _ _ _ List.not_mem_nil]
  unfold GatherDims.start
  rw [dif_neg (show ¬ (1 : Fin 2) ∈ (rowGather N E C wf).startIndexMap from
    fun h => fin2_one_ne_zero (List.mem_singleton.mp h))]
  unfold GatherDims.offCoord
  rw [dif_pos (show (1 : Fin 2) ∈ (rowGather N E C wf).sKept from
    (GatherDims.mem_sKept _ _).mpr ⟨fun h => fin2_one_ne_zero (List.mem_singleton.mp h), List.not_mem_nil⟩)]
  simp only [Nat.zero_add]
  rfl

/-- THE ROW GATHER READ AT `(e, c)`: the operand at row `clampRow e`, column `c`. -/
theorem rowGather_apply {α : Type} (hN : 0 < N)
    (x : (⟨2, ![N, C]⟩ : Shape).Idx → α) (idx : IVec ⟨2, ![E, 1]⟩ w) (e : Fin E) (c : Fin C) :
    Host.gather (rowGather N E C wf) x idx (ix2 e c) = x (ix2 (clampRow hN idx e) c) := by
  unfold Host.gather
  congr 1
  funext a
  refine Fin.ext ?_
  match a with
  | ⟨0, _⟩ => exact rowGather_row wf hN idx e c
  | ⟨1, _⟩ => exact rowGather_col wf idx e c

end RowGather

/-! ## The row scatter's result index -/

section RowScatter
variable {N E C w : Nat} (wf : ScatterDims.WF ⟨2, ![N, C]⟩ ⟨2, ![E, 1]⟩ ⟨2, ![E, C]⟩ [1] [0] [0] 1)

/-- On the row axis an update starts at its row number, read signed. -/
theorem rowScatter_start0 (j : (⟨2, ![E, C]⟩ : Shape).Idx) (idx : IVec ⟨2, ![E, 1]⟩ w) :
    (rowScatter N E C wf).start j idx 0 = (idx (ix2 (j 0) 0)).toInt := by
  unfold ScatterDims.start
  rw [dif_pos (show (0 : Fin 2) ∈ (rowScatter N E C wf).scatterDimsToOperandDims from List.mem_singleton.mpr rfl)]
  have hsi : (rowScatter N E C wf).siIdx j ⟨List.idxOf (0 : Fin 2) (rowScatter N E C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  exact congrArg (fun z => (idx z).toInt) hsi

/-- On the column axis an update starts at zero. -/
theorem rowScatter_start1 (j : (⟨2, ![E, C]⟩ : Shape).Idx) (idx : IVec ⟨2, ![E, 1]⟩ w) :
    (rowScatter N E C wf).start j idx 1 = 0 := by
  unfold ScatterDims.start
  rw [dif_neg (show ¬ (1 : Fin 2) ∈ (rowScatter N E C wf).scatterDimsToOperandDims from
    fun h => fin2_one_ne_zero (List.mem_singleton.mp h))]

/-- The row axis is inserted: no window coordinate there. -/
theorem rowScatter_window0 (j : (⟨2, ![E, C]⟩ : Shape).Idx) : (rowScatter N E C wf).window j 0 = 0 := by
  unfold ScatterDims.window
  rw [dif_neg (show ¬ (0 : Fin 2) ∈ (rowScatter N E C wf).sKept from
    fun h => absurd (List.mem_singleton.mpr rfl) (of_decide_eq_true (List.mem_filter.mp h).2))]

/-- On the column axis the window coordinate is the update's column. -/
theorem rowScatter_window1 (j : (⟨2, ![E, C]⟩ : Shape).Idx) : (rowScatter N E C wf).window j 1 = (j 1).val := by
  unfold ScatterDims.window
  rw [dif_pos (show (1 : Fin 2) ∈ (rowScatter N E C wf).sKept from
    List.mem_filter.mpr ⟨List.mem_finRange _, decide_eq_true (fun h => fin2_one_ne_zero (List.mem_singleton.mp h))⟩)]
  rfl

/-- Update `(e, c)` lands on element `(n, c')` exactly when its row number, read signed, is `n` and `c = c'`. -/
theorem rowScatter_resultIdx (j : (⟨2, ![E, C]⟩ : Shape).Idx) (idx : IVec ⟨2, ![E, 1]⟩ w)
    (i : (⟨2, ![N, C]⟩ : Shape).Idx) :
    (rowScatter N E C wf).resultIdx? j idx = some i ↔ (idx (ix2 (j 0) 0)).toInt = ((i 0).val : Int) ∧ j 1 = i 1 := by
  have hi0 := idx2_lt0 i
  have hi1 := idx2_lt1 i
  have hj1 := idx2_lt1 j
  constructor
  · intro hres
    unfold ScatterDims.resultIdx? at hres
    split at hres
    · rename_i h
      have hi := Option.some.inj hres
      have e0 : ((rowScatter N E C wf).start j idx 0 + (rowScatter N E C wf).window j 0).toNat = (i 0).val :=
        congrArg (fun f : (⟨2, ![N, C]⟩ : Shape).Idx => (f 0).val) hi
      have e1 : ((rowScatter N E C wf).start j idx 1 + (rowScatter N E C wf).window j 1).toNat = (i 1).val :=
        congrArg (fun f : (⟨2, ![N, C]⟩ : Shape).Idx => (f 1).val) hi
      have h0 := (h 0).1
      rw [rowScatter_start0, rowScatter_window0] at e0 h0
      rw [rowScatter_start1, rowScatter_window1] at e1
      refine ⟨by omega, Fin.ext (by omega)⟩
    · exact absurd hres (by simp)
  · rintro ⟨hs, hc⟩
    have hc' : (j 1).val = (i 1).val := congrArg Fin.val hc
    have H : ∀ a, 0 ≤ (rowScatter N E C wf).start j idx a + (rowScatter N E C wf).window j a ∧
        (rowScatter N E C wf).start j idx a + (rowScatter N E C wf).window j a < ((⟨2, ![N, C]⟩ : Shape).size a : Int) := by
      intro a
      match a with
      | ⟨0, _⟩ =>
        show 0 ≤ (rowScatter N E C wf).start j idx 0 + (rowScatter N E C wf).window j 0 ∧
          (rowScatter N E C wf).start j idx 0 + (rowScatter N E C wf).window j 0 < (N : Int)
        rw [rowScatter_start0, rowScatter_window0]; omega
      | ⟨1, _⟩ =>
        show 0 ≤ (rowScatter N E C wf).start j idx 1 + (rowScatter N E C wf).window j 1 ∧
          (rowScatter N E C wf).start j idx 1 + (rowScatter N E C wf).window j 1 < (C : Int)
        rw [rowScatter_start1, rowScatter_window1]; omega
    unfold ScatterDims.resultIdx?
    rw [dif_pos H]
    congr 1
    funext a
    refine Fin.ext ?_
    match a with
    | ⟨0, _⟩ =>
      show ((rowScatter N E C wf).start j idx 0 + (rowScatter N E C wf).window j 0).toNat = (i 0).val
      rw [rowScatter_start0, rowScatter_window0]; omega
    | ⟨1, _⟩ =>
      show ((rowScatter N E C wf).start j idx 1 + (rowScatter N E C wf).window j 1).toNat = (i 1).val
      rw [rowScatter_start1, rowScatter_window1]; omega

/-- THE ROW SEGMENT SUM READ AT `(n, c)`: the operand's element plus the sum of column `c` of the update rows
    whose row number is `n`. -/
theorem rowScatterAdd_apply (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowScatter N E C wf) x idx upd (ix2 n c)
      = x (ix2 n c) + ∑ e ∈ Finset.univ.filter (fun e : Fin E => (idx (ix2 e 0)).toInt = (n.val : Int)), upd (ix2 e c) := by
  unfold Ideal.hostScatterAdd
  congr 1
  rw [Finset.sum_filter, sum_idx2, Finset.sum_filter]
  refine Finset.sum_congr rfl fun e _ => ?_
  by_cases he : (idx (ix2 e 0)).toInt = (n.val : Int)
  · rw [if_pos he, Finset.sum_eq_single c]
    · rw [if_pos ((rowScatter_resultIdx wf (ix2 e c) idx (ix2 n c)).mpr ⟨he, rfl⟩)]
    · intro b _ hb
      rw [if_neg]
      intro h
      exact hb ((rowScatter_resultIdx wf (ix2 e b) idx (ix2 n c)).mp h).2
    · intro h
      exact absurd (Finset.mem_univ c) h
  · rw [if_neg he]
    refine Finset.sum_eq_zero fun b _ => ?_
    rw [if_neg]
    intro h
    exact he ((rowScatter_resultIdx wf (ix2 e b) idx (ix2 n c)).mp h).1

/-- The host's accumulating row scatter at the extended reals is that segment sum. -/
theorem host_rowScatterAdd_apply (x : FVec Ideal (⟨2, ![N, C]⟩ : Shape) .f32) (idx : IVec ⟨2, ![E, 1]⟩ w)
    (upd : FVec Ideal (⟨2, ![E, C]⟩ : Shape) .f32) (n : Fin N) (c : Fin C) :
    Host.scatterAdd (rowScatter N E C wf) x idx upd (ix2 n c)
      = x (ix2 n c) + ∑ e ∈ Finset.univ.filter (fun e : Fin E => (idx (ix2 e 0)).toInt = (n.val : Int)), upd (ix2 e c) :=
  rowScatterAdd_apply wf x idx upd n c

end RowScatter

/-! ## The element scatter -/

section VecScatter
variable {N E w : Nat} (wf : ScatterDims.WF ⟨1, ![N]⟩ ⟨2, ![E, 1]⟩ ⟨1, ![E]⟩ [] [0] [0] 1)

/-- An update starts at its element number, read signed. -/
theorem vecScatter_start0 (j : (⟨1, ![E]⟩ : Shape).Idx) (idx : IVec ⟨2, ![E, 1]⟩ w) :
    (vecScatter N E wf).start j idx 0 = (idx (ix2 (j 0) 0)).toInt := by
  unfold ScatterDims.start
  rw [dif_pos (show (0 : Fin 1) ∈ (vecScatter N E wf).scatterDimsToOperandDims from List.mem_singleton.mpr rfl)]
  have hsi : (vecScatter N E wf).siIdx j ⟨List.idxOf (0 : Fin 1) (vecScatter N E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  exact congrArg (fun z => (idx z).toInt) hsi

/-- The one axis is inserted: no window coordinate. -/
theorem vecScatter_window0 (j : (⟨1, ![E]⟩ : Shape).Idx) : (vecScatter N E wf).window j 0 = 0 := by
  unfold ScatterDims.window
  rw [dif_neg (show ¬ (0 : Fin 1) ∈ (vecScatter N E wf).sKept from
    fun h => absurd (List.mem_singleton.mpr rfl) (of_decide_eq_true (List.mem_filter.mp h).2))]

/-- Update `e` lands on element `n` exactly when its element number, read signed, is `n`. -/
theorem vecScatter_resultIdx (j : (⟨1, ![E]⟩ : Shape).Idx) (idx : IVec ⟨2, ![E, 1]⟩ w)
    (i : (⟨1, ![N]⟩ : Shape).Idx) :
    (vecScatter N E wf).resultIdx? j idx = some i ↔ (idx (ix2 (j 0) 0)).toInt = ((i 0).val : Int) := by
  have hi0 : (i 0).val < N := (i 0).isLt
  constructor
  · intro hres
    unfold ScatterDims.resultIdx? at hres
    split at hres
    · rename_i h
      have hi := Option.some.inj hres
      have e0 : ((vecScatter N E wf).start j idx 0 + (vecScatter N E wf).window j 0).toNat = (i 0).val :=
        congrArg (fun f : (⟨1, ![N]⟩ : Shape).Idx => (f 0).val) hi
      have h0 := (h 0).1
      rw [vecScatter_start0, vecScatter_window0] at e0 h0
      omega
    · exact absurd hres (by simp)
  · intro hs
    have H : ∀ a, 0 ≤ (vecScatter N E wf).start j idx a + (vecScatter N E wf).window j a ∧
        (vecScatter N E wf).start j idx a + (vecScatter N E wf).window j a < ((⟨1, ![N]⟩ : Shape).size a : Int) := by
      intro a
      match a with
      | ⟨0, _⟩ =>
        show 0 ≤ (vecScatter N E wf).start j idx 0 + (vecScatter N E wf).window j 0 ∧
          (vecScatter N E wf).start j idx 0 + (vecScatter N E wf).window j 0 < (N : Int)
        rw [vecScatter_start0, vecScatter_window0]; omega
    unfold ScatterDims.resultIdx?
    rw [dif_pos H]
    congr 1
    funext a
    refine Fin.ext ?_
    match a with
    | ⟨0, _⟩ =>
      show ((vecScatter N E wf).start j idx 0 + (vecScatter N E wf).window j 0).toNat = (i 0).val
      rw [vecScatter_start0, vecScatter_window0]; omega

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  let eqv : (⟨1, ![n]⟩ : Shape).Idx ≃ Fin n :=
    { toFun := fun i => i 0, invFun := fun a => ix1 a, left_inv := fun i => (eq_ix1 i).symm, right_inv := fun _ => rfl }
  rw [← Equiv.sum_comp eqv.symm f]
  rfl

/-- THE ELEMENT SEGMENT SUM READ AT `n`: the operand's element plus the sum of the updates whose element number
    is `n`. -/
theorem vecScatterAdd_apply (x : (⟨1, ![N]⟩ : Shape).Idx → EReal) (idx : IVec ⟨2, ![E, 1]⟩ w)
    (upd : (⟨1, ![E]⟩ : Shape).Idx → EReal) (n : Fin N) :
    Ideal.hostScatterAdd (vecScatter N E wf) x idx upd (ix1 n)
      = x (ix1 n) + ∑ e ∈ Finset.univ.filter (fun e : Fin E => (idx (ix2 e 0)).toInt = (n.val : Int)), upd (ix1 e) := by
  unfold Ideal.hostScatterAdd
  congr 1
  rw [Finset.sum_filter, sum_idx1, Finset.sum_filter]
  refine Finset.sum_congr rfl fun e _ => ?_
  refine if_congr ?_ rfl rfl
  rw [vecScatter_resultIdx]
  rfl

/-- The host's accumulating element scatter at the extended reals is that segment sum. -/
theorem host_vecScatterAdd_apply (x : FVec Ideal (⟨1, ![N]⟩ : Shape) .f32) (idx : IVec ⟨2, ![E, 1]⟩ w)
    (upd : FVec Ideal (⟨1, ![E]⟩ : Shape) .f32) (n : Fin N) :
    Host.scatterAdd (vecScatter N E wf) x idx upd (ix1 n)
      = x (ix1 n) + ∑ e ∈ Finset.univ.filter (fun e : Fin E => (idx (ix2 e 0)).toInt = (n.val : Int)), upd (ix1 e) :=
  vecScatterAdd_apply wf x idx upd n

end VecScatter

end Idealize.ShloMosaic.RowOps

end
-- ==== Proof.KernelWindows.lean ====
/-
  The arrays the kernel's windows read, as the region finds them, each read at an index.

  Before the region runs, the host lays the key points out as rows of 51 numbers (pose r, number k is coordinate k % 3
  of key point k / 3), writes two constant 51 × 17 selection matrices (Sx has a one at (3p, p), Sy a one at (3p + 1, p),
  zeros elsewhere), and lays the two bias vectors out as single rows. (It also gathers the rows of the first weight matrix
  in the order "all x rows, then all y rows"; that array is read in KernelWindowsW1.lean.)
-/
import proofs.«174692_j85134841741850_2_alg».proof.Proof.Gen.KernelIdeal.Frame
import proofs.«174692_j85134841741850_2_alg».proof.Proof.PoseSpec
import proofs.«174692_j85134841741850_2_alg».proof.Proof.LibScatter
import proofs.«174692_j85134841741850_2_alg».proof.Proof.LibTiles
import Idealize.ShloMosaic.Lib.StableHlo.Run
import Idealize.ShloMosaic.Lib.Pipeline.Value
import Idealize.ShloMosaic.Lib.ValueIdx
import Idealize.ShloMosaic.Lib.ValueLayout

noncomputable section

namespace Cert.PoseKernel

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ) (c : Dev nD)

/-! ## The key points as rows of 51 numbers -/

/-- The key-point window's array is the argument reshaped from [1000000, 17, 3] to [1000000, 51]. -/
theorem kp_array : (V m c main_v0 : S1000000x51.Idx → EReal)
    = shapeCast S1000000x51 (m ((c : Thread nD τ).loc main_arg0) : S1000000x17x3.Idx → EReal)
        shapeCasts_S1000000x17x3_S1000000x51 := by
  dsimp only [Gen.V]
  simp only [Gen.hostOps0, Gen.hostOps0_1, Gen.hostOps0_2, List.flatten_cons, List.flatten_nil, List.append_nil,
    List.cons_append, List.nil_append]
  after_results
  rfl

/-- Number `k` of row `r` is coordinate `k % 3` of key point `k / 3` of pose `r`. -/
theorem kp_window (r : Fin 1000000) (k : Fin 51) :
    (V m c main_v0 : S1000000x51.Idx → EReal) (ix2 r k)
      = (m ((c : Thread nD τ).loc main_arg0) : S1000000x17x3.Idx → EReal)
          (ix3 r ⟨k.val / 3, by have := k.isLt; omega⟩ ⟨k.val % 3, by omega⟩) := by
  rw [kp_array]
  refine shapeCast_apply (s := S1000000x17x3) (t := S1000000x51) _ _ _ _ ?_
  show (S1000000x17x3.rowMajor (ix3 r ⟨k.val / 3, _⟩ ⟨k.val % 3, _⟩)).val = (S1000000x51.rowMajor (ix2 r k)).val
  rw [Shape.rowMajor_val_two, Shape.rowMajor_val_three]
  show (r.val * 17 + k.val / 3) * 3 + k.val % 3 = r.val * 51 + k.val
  omega

/-! ## The two biases as single rows -/

/-- The first bias window's array is the argument reshaped from [128] to [1, 128]. -/
theorem b1_array : (V m c main_v2 : S1x128.Idx → EReal)
    = shapeCast S1x128 (m ((c : Thread nD τ).loc main_arg2) : S128.Idx → EReal) shapeCasts_S128_S1x128 := by
  dsimp only [Gen.V]
  simp only [Gen.hostOps0, Gen.hostOps0_1, Gen.hostOps0_2, List.flatten_cons, List.flatten_nil, List.append_nil,
    List.cons_append, List.nil_append]
  after_results
  rfl

/-- Entry `n` of the single row is entry `n` of the first bias. -/
theorem b1_window (u : Fin 1) (n : Fin 128) :
    (V m c main_v2 : S1x128.Idx → EReal) (ix2 u n)
      = (m ((c : Thread nD τ).loc main_arg2) : S128.Idx → EReal) (ix1 n) := by
  rw [b1_array]
  exact shapeCast_a_1a_apply _ _ u n

/-- The second bias window's array is the argument reshaped from [64] to [1, 64]. -/
theorem b2_array : (V m c main_v3 : S1x64.Idx → EReal)
    = shapeCast S1x64 (m ((c : Thread nD τ).loc main_arg4) : S64.Idx → EReal) shapeCasts_S64_S1x64 := by
  dsimp only [Gen.V]
  simp only [Gen.hostOps0, Gen.hostOps0_1, Gen.hostOps0_2, List.flatten_cons, List.flatten_nil, List.append_nil,
    List.cons_append, List.nil_append]
  after_results
  rfl

/-- Entry `o` of the single row is entry `o` of the second bias. -/
theorem b2_window (u : Fin 1) (o : Fin 64) :
    (V m c main_v3 : S1x64.Idx → EReal) (ix2 u o)
      = (m ((c : Thread nD τ).loc main_arg4) : S64.Idx → EReal) (ix1 o) := by
  rw [b2_array]
  exact shapeCast_a_1a_apply _ _ u o

/-! ## The two selection matrices -/

/-- The x selection window's array is its table of 867 words, each read as the number it denotes. -/
theorem selX_array : (V m c main_cst : S51x17.Idx → EReal)
    = fun i => Ideal.ofBits .f32 (lit0 (S51x17.rowMajor i)) := by
  dsimp only [Gen.V]
  simp only [Gen.hostOps0, Gen.hostOps0_1, Gen.hostOps0_2, List.flatten_cons, List.flatten_nil, List.append_nil,
    List.cons_append, List.nil_append]
  after_results
  rfl

/-- The y selection window's array is its table of 867 words, each read as the number it denotes. -/
theorem selY_array : (V m c main_cst_0 : S51x17.Idx → EReal)
    = fun i => Ideal.ofBits .f32 (lit1 (S51x17.rowMajor i)) := by
  dsimp only [Gen.V]
  simp only [Gen.hostOps0, Gen.hostOps0_1, Gen.hostOps0_2, List.flatten_cons, List.flatten_nil, List.append_nil,
    List.cons_append, List.nil_append]
  after_results
  rfl

/-- The x table, word by word: at row-major position 17k + p, the word of 1.0 when k = 3p and the zero word otherwise. -/
theorem selX_words : ∀ (k : Fin 51) (p : Fin 17),
    lit0t (k.val * 17 + p.val) = if k.val = 3 * p.val then 0x3F800000#32 else 0x00000000#32 := by
  decide +kernel

/-- The y table, word by word: at row-major position 17k + p, the word of 1.0 when k = 3p + 1 and the zero word
    otherwise. -/
theorem selY_words : ∀ (k : Fin 51) (p : Fin 17),
    lit1t (k.val * 17 + p.val) = if k.val = 3 * p.val + 1 then 0x3F800000#32 else 0x00000000#32 := by
  decide +kernel

/-- The row-major position of (k, p) in a 51 × 17 matrix. -/
theorem pos_51x17 (k : Fin 51) (p : Fin 17) : (S51x17.rowMajor (ix2 k p)).val = k.val * 17 + p.val := by
  rw [Shape.rowMajor_val_two]
  rfl

/-- Sx has a one at (3p, p) and zeros elsewhere. -/
theorem selX_window (k : Fin 51) (p : Fin 17) :
    (V m c main_cst : S51x17.Idx → EReal) (ix2 k p) = if k.val = 3 * p.val then (1 : EReal) else 0 := by
  rw [selX_array]
  show Ideal.ofBits .f32 (lit0t (S51x17.rowMajor (ix2 k p)).val) = _
  rw [pos_51x17, selX_words]
  by_cases h : k.val = 3 * p.val
  · rw [if_pos h, if_pos h]; exact Cert.LibTiles.one_f32
  · rw [if_neg h, if_neg h]; exact Ideal.ofBits_zero_f32

/-- Sy has a one at (3p + 1, p) and zeros elsewhere. -/
theorem selY_window (k : Fin 51) (p : Fin 17) :
    (V m c main_cst_0 : S51x17.Idx → EReal) (ix2 k p) = if k.val = 3 * p.val + 1 then (1 : EReal) else 0 := by
  rw [selY_array]
  show Ideal.ofBits .f32 (lit1t (S51x17.rowMajor (ix2 k p)).val) = _
  rw [pos_51x17, selY_words]
  by_cases h : k.val = 3 * p.val + 1
  · rw [if_pos h, if_pos h]; exact Cert.LibTiles.one_f32
  · rw [if_neg h, if_neg h]; exact Ideal.ofBits_zero_f32

end Cert.PoseKernel

end
-- ==== Proof.KernelWindowsW1.lean ====
/-
  The first weight matrix as the region finds it, read at an index.

  The kernel multiplies the centred coordinates in the order "all x, then all y", so before the region runs the host
  gathers the rows of the 34 × 128 weight matrix at the row numbers 0, 2, …, 32, 1, 3, …, 33. The gather reads each
  row number as a signed word clamped into [0, 33], and a select keeps the gathered row only where the row number lies
  in [0, 33]. All 34 row numbers do, and row j of the gathered matrix is row unzip j of the argument.
-/
import proofs.«174692_j85134841741850_2_alg».proof.Proof.Gen.KernelIdeal.Frame
import proofs.«174692_j85134841741850_2_alg».proof.Proof.PoseSpec
import proofs.«174692_j85134841741850_2_alg».proof.Proof.LibScatter
import Idealize.ShloMosaic.Lib.StableHlo.Run
import Idealize.ShloMosaic.Lib.Pipeline.Value
import Idealize.ShloMosaic.Lib.ValueIdx

noncomputable section

namespace Cert.PoseKernel

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ) (c : Dev nD)

/-! ## The row numbers -/

/-- The 34 row numbers 0, 2, …, 32, 1, 3, …, 33 as a vector of words. -/
def rowWords : IVec S34 32 := fun i => lit2 (S34.rowMajor i)

/-- The row numbers as the gather receives them: a negative one has 34 added (none is negative), and the vector is
    laid out as a column. -/
def rowCol : IVec S34x1 32 :=
  broadcastInDim S34x1 ![0] bcast_S34_S34x1_0
    (select (cmpi .slt rowWords (broadcastInDim S34 ![] bcast_S_S34 (constantI S_ 32 0#32)))
      (addi rowWords (broadcastInDim S34 ![] bcast_S_S34 (constantI S_ 32 34#32))) rowWords)

/-- Per row number, the bit "it lies in [0, 33]". -/
def rowBits : IVec S34x1 1 :=
  andi (cmpi .sge rowCol (broadcastInDim S34x1 ![] bcast_S_S34x1 (constantI S_ 32 0#32)))
    (cmpi .sle rowCol (broadcastInDim S34x1 ![0, 1] bcast_S1x1_S34x1_0_1
      (broadcastInDim S1x1 ![1] bcast_S1_S1x1_1 (constantI S1 32 33#32))))

/-- The same bits with the unit axis folded away by "and". -/
def rowOk : IVec S34 1 :=
  Host.reduce IntOp.andi rowBits (constantI S_ 1 1#1) reducesTo_S34x1_S34_d1 h_S_

set_option maxHeartbeats 1000000 in
/-- The weight window's array: the gathered rows where the row number is in range, a filler elsewhere. -/
theorem w1_array : (V m c main_v1 : S34x128.Idx → EReal)
    = select (broadcastInDim S34x128 ![0] bcast_S34_S34x128_0 rowOk)
        (Host.gather gather_S34x128_S34x1_S34x128_1_0_n_n_0_1_1128
          (m ((c : Thread nD τ).loc main_arg1) : S34x128.Idx → EReal) rowCol)
        (broadcastInDim S34x128 ![] bcast_S_S34x128 (constant (F := Ideal) S_ .f32 0x7FC00000#32)) := by
  dsimp only [Gen.V]
  simp only [Gen.hostOps0, Gen.hostOps0_1, Gen.hostOps0_2, List.flatten_cons, List.flatten_nil, List.append_nil,
    List.cons_append, List.nil_append]
  after_results_simp
  rfl

/-- Row number `e` after the wrap-around step, as one word. -/
def takeRow (e : Fin 34) : BitVec 32 :=
  Scalar.select (IntOp.cmpi .slt (lit2 e) 0#32) (IntOp.addi (lit2 e) 34#32) (lit2 e)

/-- Every row number lies in [0, 33], and read as a signed number and clamped to [0, 33] it is `unzip e`: row `e`
    of the new order is the x of key point `e` for `e < 17` and the y of key point `e - 17` after that. -/
theorem takeRow_facts : ∀ e : Fin 34,
    IntOp.andi (IntOp.cmpi .sge (takeRow e) 0#32) (IntOp.cmpi .sle (takeRow e) 33#32) = 1#1
      ∧ min (takeRow e).toInt.toNat (34 - 1) = (Cert.PoseSpec.unzip e).val := by
  decide +kernel

/-- Entry `e` of the row-number vector is word `e` of its table. -/
theorem rowWords_apply (e : Fin 34) : rowWords (ix1 e) = lit2 e :=
  congrArg lit2 (Fin.ext (Shape.rowMajor_val_one (ix1 e)))

/-- Entry `(e, u)` of the column is row number `e` after the wrap-around step. -/
theorem rowCol_apply (e : Fin 34) (u : Fin 1) : rowCol (ix2 e u) = takeRow e := by
  unfold rowCol
  rw [broadcastInDim_apply _ _ _ (ix2 e u) (ix1 e) (fun a => match a with | ⟨0, _⟩ => rfl)]
  show Scalar.select (IntOp.cmpi .slt (rowWords (ix1 e)) 0#32) (IntOp.addi (rowWords (ix1 e)) 34#32)
    (rowWords (ix1 e)) = _
  rw [rowWords_apply]
  rfl

/-- Every row number lies in [0, 33]. -/
theorem rowBits_apply (i : S34x1.Idx) : rowBits i = 1#1 := by
  obtain ⟨e, u, rfl⟩ : ∃ (e : Fin 34) (u : Fin 1), i = ix2 e u := ⟨i 0, i 1, eq_ix2 i⟩
  show IntOp.andi (IntOp.cmpi .sge (rowCol (ix2 e u)) 0#32) (IntOp.cmpi .sle (rowCol (ix2 e u)) 33#32) = 1#1
  rw [rowCol_apply]
  exact (takeRow_facts e).1

/-- An "and" fold of all-ones bits from a one bit is a one bit. -/
theorem foldl_andi_one {ι : Type} (f : ι → BitVec 1) (hf : ∀ n, f n = 1#1) (l : List ι) :
    l.foldl (fun r n => IntOp.andi r (f n)) 1#1 = 1#1 := by
  have h11 : IntOp.andi 1#1 1#1 = 1#1 := by decide
  induction l with
  | nil => rfl
  | cons a l ih =>
    show l.foldl (fun r n => IntOp.andi r (f n)) (IntOp.andi 1#1 (f a)) = 1#1
    rw [hf a, h11]
    exact ih

/-- So every entry of the folded mask is a one bit. -/
theorem rowOk_apply (i : S34.Idx) : rowOk i = 1#1 := by
  unfold rowOk Host.reduce
  exact foldl_andi_one (fun n => rowBits (S34x1.rowMajor.symm n)) (fun n => rowBits_apply _) _

/-- Row `j` of the weight window is row `unzip j` of the argument. -/
theorem w1_window (j : Fin 34) (n : Fin 128) :
    (V m c main_v1 : S34x128.Idx → EReal) (ix2 j n)
      = (m ((c : Thread nD τ).loc main_arg1) : S34x128.Idx → EReal) (ix2 (Cert.PoseSpec.unzip j) n) := by
  rw [w1_array, select_apply,
    broadcastInDim_apply _ _ _ (ix2 j n) (ix1 j) (fun a => match a with | ⟨0, _⟩ => rfl), rowOk_apply, select_one]
  show Host.gather (RowOps.rowGather 34 34 128 gather_S34x128_S34x1_S34x128_1_0_n_n_0_1_1128_wf) _ rowCol (ix2 j n) = _
  rw [RowOps.rowGather_apply _ (by decide : 0 < 34)]
  refine congrArg (fun r : Fin 34 => (m ((c : Thread nD τ).loc main_arg1) : S34x128.Idx → EReal) (ix2 r n)) (Fin.ext ?_)
  show min (rowCol (ix2 j 0)).toInt.toNat (34 - 1) = (Cert.PoseSpec.unzip j).val
  rw [rowCol_apply]
  exact (takeRow_facts j).2

end Cert.PoseKernel

end
-- ==== Proof.KernelRun.lean ====
/-
  The kernel's run with its result named: after every weakly fair execution the result array is the specification's
  array of the five arguments, and the arguments are unchanged. The arrays the host prepares before the region are what
  the body's row-by-row reading needs: the key points flat, the two 0/1 column pickers, the first layer's weights with
  their rows in the all-x-then-all-y order, the two biases as rows.
-/
import proofs.«174692_j85134841741850_2_alg».proof.Proof.KernelValue
import proofs.«174692_j85134841741850_2_alg».proof.Proof.KernelWindows
import proofs.«174692_j85134841741850_2_alg».proof.Proof.KernelWindowsW1

noncomputable section

namespace Cert.PoseKernel

open Cert.KernelIdeal Cert.KernelIdeal.Gen Idealize.ShloMosaic Idealize.ShloMosaic.TcCoe Idealize.SL.Sem
open Idealize.ShloMosaic.ValueIdx Cert.PoseSpec

variable (m : (ℓ : Loc nD τ sig) → Buf (Elt Ideal) ℓ) (ρ : Dev nD → PrngReg)

/-- The result array after the run is the specification's array. -/
theorem final (c : Dev nD) : (dats m 0 c).arrAt 7 cfg0.N = Gm m c :=
  final7 m c (kp_window m c) (selX_window m c) (selY_window m c) (w1_window m c) (b1_window m c) (b2_window m c)

/-- The run, read. -/
theorem run : θ_run defs (onTc (τ := τ) (main (F := Ideal))) ⟨m, fun _ => 0, ρ⟩ fun r => ∀ c : Dev nD,
      r.2.mem ((c : Thread nD τ).loc main_v4) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.PoseKernel

end
-- ==== Proof.lean ====
/-
  The certificate of the pose-embedding kernel against its reference.

  Both programs map 1000000 poses (17 key points with x, y and an unread third number) to 64 numbers each: centre the
  pose on the hip mid-point, or on the mean of its present key points, or on the hip mid-point again when none is
  present; then a dense layer 34 → 128 with a relu and a dense layer 128 → 64 (Proof/PoseSpec.lean states this once, as
  one function `G` of the five argument arrays). The kernel reads x and y out of flat rows of 51 by two products with
  0/1 matrices, lays the centred coordinates as all x then all y and uses the first layer's weights with their rows in
  that order; the reference slices, keeps the coordinates key point by key point and uses the weights as given. Over the
  extended reals a product with a 0/1 matrix is a selection, and a finite sum does not depend on the order of its terms,
  so both compute `G`: the kernel by Proof/KernelTail.lean, KernelHead.lean (its body, one row at a time),
  KernelWindows.lean, KernelWindowsW1.lean (the arrays the host prepares), KernelValue.lean and KernelRun.lean (from the
  blocks to the array); the reference by Proof/RefIsSpec.lean over its run read one operation at a time. No step needs
  the inputs to be finite. The idealization rewrote nothing, so the kernel's idealization is its own text.
-/
import proofs.«174692_j85134841741850_2_alg».proof.Defs
import proofs.«174692_j85134841741850_2_alg».proof.Proof.Gen.Kernel
import proofs.«174692_j85134841741850_2_alg».proof.Proof.Gen.Kernel.Skeleton
import proofs.«174692_j85134841741850_2_alg».proof.Proof.Gen.Kernel.Launch
import proofs.«174692_j85134841741850_2_alg».proof.Proof.Gen.Kernel.Points
import proofs.«174692_j85134841741850_2_alg».proof.Proof.Gen.Kernel.Frame
import proofs.«174692_j85134841741850_2_alg».proof.Proof.Gen.KernelIdeal
import proofs.«174692_j85134841741850_2_alg».proof.Proof.Gen.KernelIdeal.Skeleton
import proofs.«174692_j85134841741850_2_alg».proof.Proof.Gen.KernelIdeal.Launch
import proofs.«174692_j85134841741850_2_alg».proof.Proof.Gen.KernelIdeal.Points
import proofs.«174692_j85134841741850_2_alg».proof.Proof.Gen.KernelIdeal.Frame
import proofs.«174692_j85134841741850_2_alg».proof.Proof.Gen.ReferenceIdeal
import proofs.«174692_j85134841741850_2_alg».proof.Proof.Gen.Pre_finite_inputs
import proofs.«174692_j85134841741850_2_alg».proof.Proof.Gen.KernelIdeal.Value
import proofs.«174692_j85134841741850_2_alg».proof.Proof.RefRunPatched
import proofs.«174692_j85134841741850_2_alg».proof.Proof.RefReadPatched
import proofs.«174692_j85134841741850_2_alg».proof.Proof.RefIsSpec
import proofs.«174692_j85134841741850_2_alg».proof.Proof.KernelRun
import Idealize.ShloMosaic.Adequacy
import Idealize.ShloMosaic.Init

noncomputable section

namespace Cert.Proof

open Idealize.ShloMosaic Idealize.ShloMosaic.TcCoe Idealize.SL.Sem

/-- The kernel as printed terminates, faults nowhere and leaves its arguments unchanged. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the five arguments both programs end with the specification's array of those
    arguments as their result. -/
theorem algebraic : Cert.algebraic_KernelIdeal_ReferenceIdeal := by
  intro m ρ m' ρ' _ hagree
  refine ⟨fun c => Cert.PoseKernel.Gm m c, Cert.PoseKernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v49_eq, Cert.PoseRef.ref_eq, (hagree c).1, (hagree c).2.1, (hagree c).2.2.1,
    (hagree c).2.2.2.1, (hagree c).2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
